-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x64x64 : Shape := ⟨3, ![16, 64, 64]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x64x64 : S_.BroadcastsInDim S16x64x64 (![] : Fin 0 → Fin S16x64x64.rank)
  reducesTo_S16x64x64_S_d0_1_2 : S16x64x64.ReducesTo [0, 1, 2] S_

variable [Facts]

def fn {F : FTy → Type} [FloatOps F] (main_arg0 : FVec F S16x4096x3 .f32) (main_arg1 : FVec F S16x4096x3 .f32) (main_arg2 : FVec F S16x64x64 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  let main_v9 : FVec F S16x64x64 .f32 := Host.absf main_arg2
  let main_cst_2 : FVec F S_ .f32 := constant S_ .f32 0x7F800000#32
  let main_v10 : FVec F S16x64x64 .f32 := broadcastInDim S16x64x64 ![] bcast_S_S16x64x64 main_cst_2
  let main_v11 : IVec S16x64x64 1 := cmpf .olt main_v9 main_v10
  let main_c_3 : IVec S_ 1 := constantI S_ 1 1#1
  let main_v12 : IVec S_ 1 := (fun x v => Host.reduce IntOp.andi x v reducesTo_S16x64x64_S_d0_1_2 h_S_) main_v11 main_c_3
  let main_v13 : IVec S_ 1 := andi main_v8 main_v12
  main_v13
-- ==== Kernel.lean ====
abbrev S16x4096x3 : Shape := ⟨3, ![16, 4096, 3]⟩
abbrev S16x64x64 : Shape := ⟨3, ![16, 64, 64]⟩
abbrev S16x4096x1 : Shape := ⟨3, ![16, 4096, 1]⟩
abbrev S1x1024x3 : Shape := ⟨3, ![1, 1024, 3]⟩
abbrev S1x1024x1 : Shape := ⟨3, ![1, 1024, 1]⟩
abbrev S1024x1 : Shape := ⟨2, ![1024, 1]⟩
abbrev S1024x3 : Shape := ⟨2, ![1024, 3]⟩
abbrev S1024 : Shape := ⟨1, ![1024]⟩
abbrev S3x1024 : Shape := ⟨2, ![3, 1024]⟩
abbrev S1024x1024 : Shape := ⟨2, ![1024, 1024]⟩
abbrev S1x1024 : Shape := ⟨2, ![1, 1024]⟩
abbrev S16x4096 : Shape := ⟨2, ![16, 4096]⟩
abbrev S_ : Shape := ⟨0, ![]⟩
abbrev S16 : Shape := ⟨1, ![16]⟩
abbrev S64x64 : Shape := ⟨2, ![64, 64]⟩
abbrev S1x64x64 : Shape := ⟨3, ![1, 64, 64]⟩

abbrev nBuf : Space → Nat
  | .hbm => 46
  | .vmem => 14
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x64x64, .f32⟩
  | .hbm, ⟨3, _⟩ => ⟨S16x4096x1, .f32⟩
  | .hbm, ⟨4, _⟩ => ⟨S16x4096, .f32⟩
  | .hbm, ⟨5, _⟩ => ⟨S16x4096x1, .f32⟩
  | .hbm, ⟨6, _⟩ => ⟨S16x4096, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64x64, .i32⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .f32⟩
  | .hbm, ⟨29, _⟩ => ⟨S16x64x64, .f32⟩
  | .hbm, ⟨30, _⟩ => ⟨S1x64x64, .f32⟩
  | .hbm, ⟨31, _⟩ => ⟨S16x64x64, .f32⟩
  | .hbm, ⟨32, _⟩ => ⟨S16x64x64, .f32⟩
  | .hbm, ⟨33, _⟩ => ⟨S16x64x64, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x3, .f32⟩
  | .local _ .vmem, ⟨11, _⟩ => ⟨S1x1024x1, .f32⟩
  | .local _ .vmem, ⟨12, _⟩ => ⟨S1x1024x1, .f32⟩
  | .local _ .vmem, ⟨13, _⟩ => ⟨S1024x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_13 : BitVec 32 := 0#32
  let v34 : BitVec 1 := Scalar.cmpi .ne v33 c0_i32_13
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 4, 4], ![false, false, false]⟩

def k1_cond3 (i : grid1.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_13 : BitVec 32 := 0#32
  let v34 : BitVec 1 := Scalar.cmpi .ne v33 c0_i32_13
  v34

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  bitsLt_bf16_f32 : FTy.bits .bf16 < FTy.bits .f32
  transposes_S1024x3_p1_0_S3x1024 : S1024x3.Transposes [1, 0] S3x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S16x4096x1_S16x4096 : S16x4096x1.ShapeCasts S16x4096
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  reducesTo_S16x64x64_S16_d1_2 : S16x64x64.ReducesTo [1, 2] S16
  dot_S1024x3_S3x1024_S1024x1024_1_0_0_1_n_n_wf : DotDims.WF S1024x3 S3x1024 S1024x1024 [1] [0] [0] [1] [] []
  dot_S16x64x64_S16x64x64_S16x64x64_2_2_1_1_0_0_wf : DotDims.WF S16x64x64 S16x64x64 S16x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x4096x3.size a
  hwx0_1 : ∀ i : grid0.Coords, EltTy.bits .f32 = 32 ∨ (Rect.block (s := S16x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S16x4096x3.size a
  hwx1_0 : ∀ i : grid1.Coords, EltTy.bits .f32 = 32 ∨ (Rect.block (s := S16x4096x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S16x4096x3.size a
  hwx1_1 : ∀ i : grid1.Coords, EltTy.bits .f32 = 32 ∨ (Rect.block (s := S16x4096x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S16x4096x1.size a
  hwx1_2 : ∀ i : grid1.Coords, EltTy.bits .f32 = 32 ∨ (Rect.block (s := S16x4096x1) S1x1024x1.size (cc1_transform_2 i) (hinb1_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf
def dot_S16x64x64_S16x64x64_S16x64x64_2_2_1_1_0_0 : DotDims S16x64x64 S16x64x64 S16x64x64 where
  lhsContracting := [2]
  rhsContracting := [2]
  lhsNonContracting := [1]
  rhsNonContracting := [1]
  lhsBatch := [0]
  rhsBatch := [0]
  wf := dot_S16x64x64_S16x64x64_S16x64x64_2_2_1_1_0_0_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S16x64x64 : Shape := ⟨3, ![16, 64, 64]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩
abbrev S64x64 : Shape := ⟨2, ![64, 64]⟩
abbrev S1x64x64 : Shape := ⟨3, ![1, 64, 64]⟩

abbrev nBuf : Space → Nat
  | .hbm => 66
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x64x64, .f32⟩
  | .hbm, ⟨3, _⟩ => ⟨S16x4096x3, .f32⟩
  | .hbm, ⟨4, _⟩ => ⟨S_, .f32⟩
  | .hbm, ⟨5, _⟩ => ⟨S16x4096, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x4096, .f32⟩
  | .hbm, ⟨10, _⟩ => ⟨S16x4096x1, .f32⟩
  | .hbm, ⟨11, _⟩ => ⟨S16x1x4096, .f32⟩
  | .hbm, ⟨12, _⟩ => ⟨S16x4096x4096, .f32⟩
  | .hbm, ⟨13, _⟩ => ⟨S16x4096x4096, .f32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x4096, .f32⟩
  | .hbm, ⟨19, _⟩ => ⟨S_, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S64x64, .i1⟩
  | .hbm, ⟨48, _⟩ => ⟨S64x64, .f32⟩
  | .hbm, ⟨49, _⟩ => ⟨S16x64x64, .f32⟩
  | .hbm, ⟨50, _⟩ => ⟨S1x64x64, .f32⟩
  | .hbm, ⟨51, _⟩ => ⟨S16x64x64, .f32⟩
  | .hbm, ⟨52, _⟩ => ⟨S16x64x64, .f32⟩
  | .hbm, ⟨53, _⟩ => ⟨S16x64x64, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  reducesTo_S16x64x64_S16_d1_2 : S16x64x64.ReducesTo [1, 2] S16
  dot_S16x4096x3_S16x4096x3_S16x4096x4096_2_2_1_1_0_0_wf : DotDims.WF S16x4096x3 S16x4096x3 S16x4096x4096 [2] [2] [1] [1] [0] [0]
  dot_S16x64x64_S16x64x64_S16x64x64_2_2_1_1_0_0_wf : DotDims.WF S16x64x64 S16x64x64 S16x64x64 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf
def dot_S16x64x64_S16x64x64_S16x64x64_2_2_1_1_0_0 : DotDims S16x64x64 S16x64x64 S16x64x64 where
  lhsContracting := [2]
  rhsContracting := [2]
  lhsNonContracting := [1]
  rhsNonContracting := [1]
  lhsBatch := [0]
  rhsBatch := [0]
  wf := dot_S16x64x64_S16x64x64_S16x64x64_2_2_1_1_0_0_wf

class Facts : Prop extends Facts₀ where

variable [Facts]
-- ==== Proof.KB.Runs0.lean ====
/-
  The body of pallas_call 0 on any whole staging buffers, in each of the three ways the reduction axis' coordinate
  `j = i 2` sends it through its three conditionals:
    first   (j = 0):      the tile's row minima are stored into the scratch accumulator;
    middle  (0 < j < 3):  the accumulator is replaced by its minimum with the tile's row minima;
    last    (j = 3):      the same, and the accumulator is then copied into the output block.
  In every case the two input blocks are handed back as found; in the first two the output block is not touched.
  Each run is stated with the list of stores the accumulator (and, in the last case, the output block) ends with as a
  witness that the symbolic execution finds.
-/
import proofs.«171192_j43654047597211_1_alg».proof.Proof.Gen.Kernel.Launch
import proofs.«171192_j43654047597211_1_alg».proof.Proof.Gen.Kernel.Skeleton
import proofs.«171192_j43654047597211_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the grid coordinates -/

/-- `j = 0`, as the body tests it. -/
abbrev condFirst (i : grid0.Coords) : Prop := (Scalar.cmpi .ne (Scalar.extui (Scalar.cmpi .eq (BitVec.ofNat 32 (i 2).val) 0#32)) 0#32) = 1#1
/-- `j > 0`, as the body tests it. -/
abbrev condLater (i : grid0.Coords) : Prop := (Scalar.cmpi .ne (Scalar.extui (Scalar.cmpi .sgt (BitVec.ofNat 32 (i 2).val) 0#32)) 0#32) = 1#1
/-- `j = 3` (the last step of the reduction axis), as the body tests it. -/
abbrev condLast (i : grid0.Coords) : Prop := k0_cond3 i = 1#1

/-- The grid is walked with the reduction axis innermost, four steps long: `j` is the point's number mod 4. -/
theorem hcondFirst : ∀ t : Fin cfg0.N, condFirst (grid0.coords t) ↔ t.val % 4 = 0 :=
  (by decide +kernel : ∀ t : Fin grid0.N, condFirst (grid0.coords t) ↔ t.val % 4 = 0)
theorem hcondLater : ∀ t : Fin cfg0.N, condLater (grid0.coords t) ↔ ¬ t.val % 4 = 0 :=
  (by decide +kernel : ∀ t : Fin grid0.N, condLater (grid0.coords t) ↔ ¬ t.val % 4 = 0)
theorem hcondLast : ∀ t : Fin cfg0.N, condLast (grid0.coords t) ↔ t.val % 4 = 3 :=
  (by decide +kernel : ∀ t : Fin grid0.N, condLast (grid0.coords t) ↔ t.val % 4 = 3)

/-! ## The runs -/

set_option maxHeartbeats 2000000 in
/-- First step of the reduction axis: the accumulator, whatever it held, ends with the stores `LS`. -/
noncomputable def runFirst (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_min_kernel i arg3 harg3 arg4 harg4 arg5 harg5 arg6 harg6) K } := by
  refine ⟨?_, fun xo E K => ?run⟩
  case run =>
    simp only [cc0__chamfer_min_kernel_eq_skeleton]; unfold cc0__chamfer_min_kernel_skel
    unfold owns
    iintro ⟨⟨%f0, %hf0, H0⟩, ⟨%f1, %hf1, H1⟩, ⟨%f2, %hf2, H2⟩, ⟨%d, %fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- A middle step: the accumulator at `xs` ends with the stores `LS`. -/
noncomputable def runMiddle (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_min_kernel i arg3 harg3 arg4 harg4 arg5 harg5 arg6 harg6) K } := by
  refine ⟨?_, fun xo E K => ?run⟩
  case run =>
    simp only [cc0__chamfer_min_kernel_eq_skeleton]; unfold cc0__chamfer_min_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- The last step: the accumulator at `xs` ends with the stores `LS`, the output block, whatever it held, with `LO`. -/
noncomputable def runLast (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) :
    Σ' (LO : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_min_kernel i arg3 harg3 arg4 harg4 arg5 harg5 arg6 harg6) K } := by
  refine ⟨?_, ?_, fun E K => ?run⟩
  case run =>
    simp only [cc0__chamfer_min_kernel_eq_skeleton]; unfold cc0__chamfer_min_kernel_skel
    unfold owns
    iintro ⟨⟨%f0, %hf0, H0⟩, ⟨%f1, %hf1, H1⟩, ⟨%d2, %f2, %hf2, H2⟩, ⟨%fs, %hfs, HS⟩, Hk⟩
    obtain rfl := harg3.eq_unread hf0; obtain rfl := harg4.eq_unread hf1; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.R0

end
-- ==== Proof.KB.Region0.lean ====
/-
  pallas_call 0 from the contents `V` its region is entered at: what each window's staging buffer holds after the body
  at every grid point, and the body's obligation towards the pipeline.

  The grid is walked with the reduction axis `j` innermost (four steps), so point `t` has `j = t mod 4`. The input
  blocks are handed back as fetched. The scratch accumulator is carried from point to point: after point `t` it holds
  `scrAt t` — at `j = 0` the tile's row minima, at a later `j` the minimum of what the point before left with the tile's
  row minima. The output block is stored only at `j = 3` (from the accumulator) and is written back there; at the other
  points the body does not touch it.
-/
import proofs.«171192_j43654047597211_1_alg».proof.Proof.KB.Runs0

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores each run ends with cover their buffers -/

theorem scoverFirst (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) (y : S1024x1.Idx) :
    ∃ pc ∈ (runFirst (F := F) c i arg3 harg3 arg4 harg4 arg5 harg5 arg6 harg6 hc1 hc2 hc3 x0 x1).1, y ∈ pc.1.set :=
  View.cover_of_tiledL (runFirst (F := F) c i arg3 harg3 arg4 harg4 arg5 harg5 arg6 harg6 hc1 hc2 hc3 x0 x1).1 S1024x1.size (by sl_kernel_rfl) y

theorem scoverMiddle (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) (y : S1024x1.Idx) :
    ∃ pc ∈ (runMiddle (F := F) c i arg3 harg3 arg4 harg4 arg5 harg5 arg6 harg6 hc1 hc2 hc3 x0 x1 xs).1, y ∈ pc.1.set :=
  View.cover_of_tiledL (runMiddle (F := F) c i arg3 harg3 arg4 harg4 arg5 harg5 arg6 harg6 hc1 hc2 hc3 x0 x1 xs).1 S1024x1.size (by sl_kernel_rfl) y

theorem scoverLast (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1024x1.Idx) :
    ∃ pc ∈ (runLast (F := F) c i arg3 harg3 arg4 harg4 arg5 harg5 arg6 harg6 hc1 hc2 hc3 x0 x1 xs).2.1, y ∈ pc.1.set :=
  View.cover_of_tiledL (runLast (F := F) c i arg3 harg3 arg4 harg4 arg5 harg5 arg6 harg6 hc1 hc2 hc3 x0 x1 xs).2.1 S1024x1.size (by sl_kernel_rfl) y

theorem ocoverLast (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1x1024x1.Idx) :
    ∃ pc ∈ (runLast (F := F) c i arg3 harg3 arg4 harg4 arg5 harg5 arg6 harg6 hc1 hc2 hc3 x0 x1 xs).1, y ∈ pc.1.set :=
  View.cover_of_tiledL (runLast (F := F) c i arg3 harg3 arg4 harg4 arg5 harg5 arg6 harg6 hc1 hc2 hc3 x0 x1 xs).1 S1x1024x1.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's buffers at a point -/

abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
/-- The scratch accumulator: a whole scoped buffer of the kernel's own. -/
abbrev scM : Memref sig .tc .vmem S1024x1 .f32 := Memref.whole cc0_scratch0
abbrev VS : View sig .tc .vmem S1024x1 .f32 := scM.view
/-- One staging buffer of the output window, through which its contents are stated (the choice does not matter). -/
abbrev VO : View sig .tc .vmem S1x1024x1 .f32 := (Memref.whole cc0_stg2_0 : Memref sig .tc .vmem S1x1024x1 .f32).view

/-! ## Which way a point goes -/

theorem goesFirst (t : Fin cfg0.N) (h0 : t.val % 4 = 0) :
    condFirst (grid0.coords t) ∧ ¬condLater (grid0.coords t) ∧ ¬condLast (grid0.coords t) :=
  ⟨(hcondFirst t).mpr h0, fun h => (hcondLater t).mp h h0, fun h => by have := (hcondLast t).mp h; omega⟩
theorem goesMiddle (t : Fin cfg0.N) (h0 : ¬ t.val % 4 = 0) (h3 : ¬ t.val % 4 = 3) :
    ¬condFirst (grid0.coords t) ∧ condLater (grid0.coords t) ∧ ¬condLast (grid0.coords t) :=
  ⟨fun h => h0 ((hcondFirst t).mp h), (hcondLater t).mpr h0, fun h => h3 ((hcondLast t).mp h)⟩
theorem goesLast (t : Fin cfg0.N) (h3 : t.val % 4 = 3) :
    ¬condFirst (grid0.coords t) ∧ condLater (grid0.coords t) ∧ condLast (grid0.coords t) :=
  ⟨fun h => by have := (hcondFirst t).mp h; omega, (hcondLater t).mpr (by omega), (hcondLast t).mpr h3⟩

/-- The three runs at point `t`, on the buffers the pipeline calls the body with and the blocks found there. -/
abbrev rF (c : Dev nD) (t : Fin cfg0.N) (h0 : t.val % 4 = 0) :=
  runFirst (F := F) c (grid0.coords t) (ms0 t) (hs0 t) (ms1 t) (hs1 t) (ms2 t) (hs2 t) scM (Memref.isWhole_whole _) (goesFirst t h0).1 (goesFirst t h0).2.1 (goesFirst t h0).2.2 (iblk V c 0 t) (iblk V c 1 t)
abbrev rM (c : Dev nD) (t : Fin cfg0.N) (h0 : ¬ t.val % 4 = 0) (h3 : ¬ t.val % 4 = 3) (xs : Vec F S1024x1 .f32) :=
  runMiddle (F := F) c (grid0.coords t) (ms0 t) (hs0 t) (ms1 t) (hs1 t) (ms2 t) (hs2 t) scM (Memref.isWhole_whole _) (goesMiddle t h0 h3).1 (goesMiddle t h0 h3).2.1 (goesMiddle t h0 h3).2.2 (iblk V c 0 t) (iblk V c 1 t) xs
abbrev rL (c : Dev nD) (t : Fin cfg0.N) (h3 : t.val % 4 = 3) (xs : Vec F S1024x1 .f32) :=
  runLast (F := F) c (grid0.coords t) (ms0 t) (hs0 t) (ms1 t) (hs1 t) (ms2 t) (hs2 t) scM (Memref.isWhole_whole _) (goesLast t h3).1 (goesLast t h3).2.1 (goesLast t h3).2.2 (iblk V c 0 t) (iblk V c 1 t) xs

/-! ## The accumulator and the output block, point by point -/

/-- What point `t` leaves in the accumulator, from what it found there (`xs`; not consulted at `j = 0`). -/
def stepScr (c : Dev nD) (t : Fin cfg0.N) (xs : Vec F S1024x1 .f32) : Vec F S1024x1 .f32 :=
  if h0 : t.val % 4 = 0 then VS.read (Elt F) (VS.writes (Elt F) VS.junk (rF V c t h0).1)
  else if h3 : t.val % 4 = 3 then VS.read (Elt F) (VS.writes (Elt F) VS.junk (rL V c t h3 xs).2.1)
  else VS.read (Elt F) (VS.writes (Elt F) VS.junk (rM V c t h0 h3 xs).1)

/-- The accumulator after point `n`. -/
def scrAt (c : Dev nD) : (n : ℕ) → n < cfg0.N → Vec F S1024x1 .f32
  | 0, hn => stepScr V c ⟨0, hn⟩ (VS.read (Elt F) VS.junk)
  | n + 1, hn => stepScr V c ⟨n + 1, hn⟩ (scrAt c n (Nat.lt_of_succ_lt hn))

/-- The accumulator as point `t` finds it: what the point before left (nothing named at the very first point). -/
def prevScr (c : Dev nD) (t : Fin cfg0.N) : Vec F S1024x1 .f32 :=
  match t with
  | ⟨0, _⟩ => VS.read (Elt F) VS.junk
  | ⟨n + 1, hn⟩ => scrAt V c n (Nat.lt_of_succ_lt hn)

theorem scrAt_eq (c : Dev nD) (t : Fin cfg0.N) : scrAt V c t.val t.isLt = stepScr V c t (prevScr V c t) := by
  obtain ⟨n, hn⟩ := t
  cases n with
  | zero => rfl
  | succ n => rfl

/-- The output block after point `t`: at `j = 3` the last run's stores; elsewhere nothing is named (the block is
    neither stored nor written back there, and nothing consults this value). -/
def outAt (c : Dev nD) (t : Fin cfg0.N) : Vec F S1x1024x1 .f32 :=
  if h3 : t.val % 4 = 3 then VO.read (Elt F) (VO.writes (Elt F) VO.junk (rL V c t h3 (prevScr V c t)).1)
  else VO.read (Elt F) VO.junk

/-! ## The invariant between points -/

/-- The core's scoped buffers that are neither a staging buffer of this call nor its accumulator, at anything. -/
abbrev restBut (c : Dev nD) : sProp 𝕄 :=
  Pipeline.scopedRestBut (Ix := Unit) (Name := ℕ) (U := UR sig nD τ) (Lvl := ℕ) (Val := Elt F) spec0 c [cc0_scratch0]

/-- What the launch hands the region, with the accumulator split off. -/
theorem PhiA_eq (c : Dev nD) :
    (Pipeline.ΦA spec0 c : sProp 𝕄)
      = iprop(iprop((∃ d, owns (c : Thread nD τ) scM fullShare d) ∗ restBut c) ∗ (∃ r, prngReg c r)) := by
  unfold Pipeline.ΦA
  rw [Pipeline.scopedRest_split_of_list spec0 c [cc0_scratch0] (by decide) (by decide)]
  simp only [Idealize.SL.BI.bigSepL_singleton, scM, owns_whole]; try rfl

/-- Before the first point: what the launch hands over. Afterwards: the accumulator at what the point before left. -/
def PhiS (c : Dev nD) : (n : ℕ) → n ≤ cfg0.N → sProp 𝕄
  | 0, _ => Pipeline.ΦA spec0 c
  | n + 1, hn => iprop(iprop(owns (c : Thread nD τ) scM fullShare (scrAt V c n hn) ∗ restBut c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (scrAt V c n hn) ∗ restBut c) ∗ (∃ r, prngReg c r)) := rfl
theorem PhiS_pos (c : Dev nD) (t : Fin cfg0.N) (hz : t.val ≠ 0) :
    PhiS V c t.val (Nat.le_of_lt t.isLt) = iprop(iprop(owns (c : Thread nD τ) scM fullShare (prevScr V c t) ∗ restBut c) ∗ (∃ r, prngReg c r)) := by
  obtain ⟨n, hn⟩ := t
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = outAt V c t := by dsimp only [dat]
theorem before0 (c : Dev nD) (t : Fin cfg0.N) (d) : (dat V c).before 0 t d = iblk V c 0 t :=
  before_in0_of V (dat V c) (A_eq V c 0) (after0 V c) t d
theorem before1 (c : Dev nD) (t : Fin cfg0.N) (d) : (dat V c).before 1 t d = iblk V c 1 t :=
  before_in1_of V (dat V c) (A_eq V c 1) (after1 V c) t d

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem idle2 : ∀ t : Fin cfg0.N, ¬ t.val % 4 = 3 → cfg0.idle 2 (grid0.coords t) = true :=
  (by decide +kernel : ∀ t : Fin grid0.N, ¬ t.val % 4 = 3 → cfg0.idle 2 (grid0.coords t) = true)
theorem live2 : ∀ t : Fin cfg0.N, t.val % 4 = 3 → cfg0.idle 2 (grid0.coords t) = false :=
  (by decide +kernel : ∀ t : Fin grid0.N, t.val % 4 = 3 → cfg0.idle 2 (grid0.coords t) = false)
theorem noFlush2 (t : Fin cfg0.N) (h3 : ¬ t.val % 4 = 3) : (cfg0.win 2).flush t = false :=
  Bool.eq_false_iff.mpr fun h => h3 ((flush0_2 t).mp h)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the point's number mod 4 says which run applies; the
    invariant hands the body the accumulator at what the point before left (at anything at the first point) and takes it
    back at this point's contents; the output block is handed back untouched except at `j = 3`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [scrAt_eq V c t]
  have hN : t.val < 256 := lt_of_lt_of_eq t.isLt (show cfg0.N = 256 from N_0)
  by_cases h0 : t.val % 4 = 0
  · have h3 : ¬ t.val % 4 = 3 := by omega
    rw [Dat.leavesExact_idle (dat V c) 2 t (idle2 t h3) (noFlush2 t h3)]
    unfold stepScr; rw [dif_pos h0]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c t hz]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat V c).leavesExact 2 t = owns (c : Thread nD τ) (ms2 t) fullShare ((dat V c).after 2 t) from by
        unfold Dat.leavesExact; rw [live2 t h3], after2]
      unfold stepScr outAt; rw [dif_neg h0, dif_pos h3, dif_pos h3]
      rw [PhiS_castSucc V c t, PhiS_pos V c t hz]
      iintro ⟨⟨⟨HS, Hrest⟩, Hg⟩, Ho, ⟨%d0, H0⟩, ⟨%d1, H1⟩, ⟨%d2, H2⟩⟩
      iapply ((rL V c t h3 (prevScr V c t)).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverLast c _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (ocoverLast c _ _ _ _ _ _ _ _ _ _ _ _ _ _ _)
    · rw [Dat.leavesExact_idle (dat V c) 2 t (idle2 t h3) (noFlush2 t h3)]
      unfold stepScr; rw [dif_neg h0, dif_neg h3]
      rw [PhiS_castSucc V c t, PhiS_pos V c t hz]
      iintro ⟨⟨⟨HS, Hrest⟩, Hg⟩, Ho, ⟨%d0, H0⟩, ⟨%d1, H1⟩, ⟨%d2, H2⟩⟩
      iapply ((rM V c t h0 h3 (prevScr V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverMiddle c _ _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulator's named contents are
    forgotten. -/
theorem PhiS_out (c : Dev nD) (n : ℕ) (h : n ≤ cfg0.N) (hz : n ≠ 0) : PhiS V c n h ⊢ Pipeline.ΦA spec0 c := by
  cases n with
  | zero => exact absurd rfl hz
  | succ n =>
    rw [PhiS_succ, PhiA_eq]
    iintro ⟨⟨HS, Hrest⟩, Hg⟩
    isplitl [HS Hrest]
    · isplitl [HS]
      · iexists _; iexact HS
      iexact Hrest
    iexact Hg

/-- The same after the last point. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_out V c _ _ (by rw [Fin.val_last]; have : cfg0.N = 256 := N_0; omega)

end Region

end Cert.Kernel.R0

end
-- ==== Proof.KB.Runs1.lean ====
/-
  The body of pallas_call 1 on any whole staging buffers, in each of the three ways the reduction axis' coordinate
  `j = i 2` sends it through its three conditionals:
    first   (j = 0):      the tile's row minima are stored into the scratch accumulator;
    middle  (0 < j < 3):  the accumulator is replaced by its minimum with the tile's row minima;
    last    (j = 3):      the same, and the accumulator is then copied into the output block.
  In every case the two input blocks are handed back as found; in the first two the output block is not touched.
  Each run is stated with the list of stores the accumulator (and, in the last case, the output block) ends with as a
  witness that the symbolic execution finds.
-/
import proofs.«171192_j43654047597211_1_alg».proof.Proof.Gen.Kernel.Launch
import proofs.«171192_j43654047597211_1_alg».proof.Proof.Gen.Kernel.Skeleton
import proofs.«171192_j43654047597211_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the grid coordinates -/

/-- `j = 0`, as the body tests it. -/
abbrev condFirst (i : grid1.Coords) : Prop := (Scalar.cmpi .ne (Scalar.extui (Scalar.cmpi .eq (BitVec.ofNat 32 (i 2).val) 0#32)) 0#32) = 1#1
/-- `j > 0`, as the body tests it. -/
abbrev condLater (i : grid1.Coords) : Prop := (Scalar.cmpi .ne (Scalar.extui (Scalar.cmpi .sgt (BitVec.ofNat 32 (i 2).val) 0#32)) 0#32) = 1#1
/-- `j = 3` (the last step of the reduction axis), as the body tests it. -/
abbrev condLast (i : grid1.Coords) : Prop := k1_cond3 i = 1#1

/-- The grid is walked with the reduction axis innermost, four steps long: `j` is the point's number mod 4. -/
theorem hcondFirst : ∀ t : Fin cfg1.N, condFirst (grid1.coords t) ↔ t.val % 4 = 0 :=
  (by decide +kernel : ∀ t : Fin grid1.N, condFirst (grid1.coords t) ↔ t.val % 4 = 0)
theorem hcondLater : ∀ t : Fin cfg1.N, condLater (grid1.coords t) ↔ ¬ t.val % 4 = 0 :=
  (by decide +kernel : ∀ t : Fin grid1.N, condLater (grid1.coords t) ↔ ¬ t.val % 4 = 0)
theorem hcondLast : ∀ t : Fin cfg1.N, condLast (grid1.coords t) ↔ t.val % 4 = 3 :=
  (by decide +kernel : ∀ t : Fin grid1.N, condLast (grid1.coords t) ↔ t.val % 4 = 3)

/-! ## The runs -/

set_option maxHeartbeats 2000000 in
/-- First step of the reduction axis: the accumulator, whatever it held, ends with the stores `LS`. -/
noncomputable def runFirst (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_min_kernel i arg3 harg3 arg4 harg4 arg5 harg5 arg6 harg6) K } := by
  refine ⟨?_, fun xo E K => ?run⟩
  case run =>
    simp only [cc1__chamfer_min_kernel_eq_skeleton]; unfold cc1__chamfer_min_kernel_skel
    unfold owns
    iintro ⟨⟨%f0, %hf0, H0⟩, ⟨%f1, %hf1, H1⟩, ⟨%f2, %hf2, H2⟩, ⟨%d, %fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- A middle step: the accumulator at `xs` ends with the stores `LS`. -/
noncomputable def runMiddle (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_min_kernel i arg3 harg3 arg4 harg4 arg5 harg5 arg6 harg6) K } := by
  refine ⟨?_, fun xo E K => ?run⟩
  case run =>
    simp only [cc1__chamfer_min_kernel_eq_skeleton]; unfold cc1__chamfer_min_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- The last step: the accumulator at `xs` ends with the stores `LS`, the output block, whatever it held, with `LO`. -/
noncomputable def runLast (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) :
    Σ' (LO : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_min_kernel i arg3 harg3 arg4 harg4 arg5 harg5 arg6 harg6) K } := by
  refine ⟨?_, ?_, fun E K => ?run⟩
  case run =>
    simp only [cc1__chamfer_min_kernel_eq_skeleton]; unfold cc1__chamfer_min_kernel_skel
    unfold owns
    iintro ⟨⟨%f0, %hf0, H0⟩, ⟨%f1, %hf1, H1⟩, ⟨%d2, %f2, %hf2, H2⟩, ⟨%fs, %hfs, HS⟩, Hk⟩
    obtain rfl := harg3.eq_unread hf0; obtain rfl := harg4.eq_unread hf1; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.R1

end
-- ==== Proof.KB.Region1.lean ====
/-
  pallas_call 1 from the contents `V` its region is entered at: what each window's staging buffer holds after the body
  at every grid point, and the body's obligation towards the pipeline.

  The grid is walked with the reduction axis `j` innermost (four steps), so point `t` has `j = t mod 4`. The input
  blocks are handed back as fetched. The scratch accumulator is carried from point to point: after point `t` it holds
  `scrAt t` — at `j = 0` the tile's row minima, at a later `j` the minimum of what the point before left with the tile's
  row minima. The output block is stored only at `j = 3` (from the accumulator) and is written back there; at the other
  points the body does not touch it.
-/
import proofs.«171192_j43654047597211_1_alg».proof.Proof.KB.Runs1

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores each run ends with cover their buffers -/

theorem scoverFirst (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) (y : S1024x1.Idx) :
    ∃ pc ∈ (runFirst (F := F) c i arg3 harg3 arg4 harg4 arg5 harg5 arg6 harg6 hc1 hc2 hc3 x0 x1).1, y ∈ pc.1.set :=
  View.cover_of_tiledL (runFirst (F := F) c i arg3 harg3 arg4 harg4 arg5 harg5 arg6 harg6 hc1 hc2 hc3 x0 x1).1 S1024x1.size (by sl_kernel_rfl) y

theorem scoverMiddle (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) (y : S1024x1.Idx) :
    ∃ pc ∈ (runMiddle (F := F) c i arg3 harg3 arg4 harg4 arg5 harg5 arg6 harg6 hc1 hc2 hc3 x0 x1 xs).1, y ∈ pc.1.set :=
  View.cover_of_tiledL (runMiddle (F := F) c i arg3 harg3 arg4 harg4 arg5 harg5 arg6 harg6 hc1 hc2 hc3 x0 x1 xs).1 S1024x1.size (by sl_kernel_rfl) y

theorem scoverLast (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1024x1.Idx) :
    ∃ pc ∈ (runLast (F := F) c i arg3 harg3 arg4 harg4 arg5 harg5 arg6 harg6 hc1 hc2 hc3 x0 x1 xs).2.1, y ∈ pc.1.set :=
  View.cover_of_tiledL (runLast (F := F) c i arg3 harg3 arg4 harg4 arg5 harg5 arg6 harg6 hc1 hc2 hc3 x0 x1 xs).2.1 S1024x1.size (by sl_kernel_rfl) y

theorem ocoverLast (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1x1024x1.Idx) :
    ∃ pc ∈ (runLast (F := F) c i arg3 harg3 arg4 harg4 arg5 harg5 arg6 harg6 hc1 hc2 hc3 x0 x1 xs).1, y ∈ pc.1.set :=
  View.cover_of_tiledL (runLast (F := F) c i arg3 harg3 arg4 harg4 arg5 harg5 arg6 harg6 hc1 hc2 hc3 x0 x1 xs).1 S1x1024x1.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's buffers at a point -/

abbrev ms0 (t : Fin cfg1.N) : Memref sig .tc .vmem S1x1024x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1 .f32 := win1_2.stage (cfg1.slots t 2)
abbrev hs2 (t : Fin cfg1.N) : (ms2 t).IsWhole := hstage1_2 ((cfg1.slots t 2).cast nbuf1_2)
/-- The scratch accumulator: a whole scoped buffer of the kernel's own. -/
abbrev scM : Memref sig .tc .vmem S1024x1 .f32 := Memref.whole cc1_scratch0
abbrev VS : View sig .tc .vmem S1024x1 .f32 := scM.view
/-- One staging buffer of the output window, through which its contents are stated (the choice does not matter). -/
abbrev VO : View sig .tc .vmem S1x1024x1 .f32 := (Memref.whole cc1_stg2_0 : Memref sig .tc .vmem S1x1024x1 .f32).view

/-! ## Which way a point goes -/

theorem goesFirst (t : Fin cfg1.N) (h0 : t.val % 4 = 0) :
    condFirst (grid1.coords t) ∧ ¬condLater (grid1.coords t) ∧ ¬condLast (grid1.coords t) :=
  ⟨(hcondFirst t).mpr h0, fun h => (hcondLater t).mp h h0, fun h => by have := (hcondLast t).mp h; omega⟩
theorem goesMiddle (t : Fin cfg1.N) (h0 : ¬ t.val % 4 = 0) (h3 : ¬ t.val % 4 = 3) :
    ¬condFirst (grid1.coords t) ∧ condLater (grid1.coords t) ∧ ¬condLast (grid1.coords t) :=
  ⟨fun h => h0 ((hcondFirst t).mp h), (hcondLater t).mpr h0, fun h => h3 ((hcondLast t).mp h)⟩
theorem goesLast (t : Fin cfg1.N) (h3 : t.val % 4 = 3) :
    ¬condFirst (grid1.coords t) ∧ condLater (grid1.coords t) ∧ condLast (grid1.coords t) :=
  ⟨fun h => by have := (hcondFirst t).mp h; omega, (hcondLater t).mpr (by omega), (hcondLast t).mpr h3⟩

/-- The three runs at point `t`, on the buffers the pipeline calls the body with and the blocks found there. -/
abbrev rF (c : Dev nD) (t : Fin cfg1.N) (h0 : t.val % 4 = 0) :=
  runFirst (F := F) c (grid1.coords t) (ms0 t) (hs0 t) (ms1 t) (hs1 t) (ms2 t) (hs2 t) scM (Memref.isWhole_whole _) (goesFirst t h0).1 (goesFirst t h0).2.1 (goesFirst t h0).2.2 (iblk V c 0 t) (iblk V c 1 t)
abbrev rM (c : Dev nD) (t : Fin cfg1.N) (h0 : ¬ t.val % 4 = 0) (h3 : ¬ t.val % 4 = 3) (xs : Vec F S1024x1 .f32) :=
  runMiddle (F := F) c (grid1.coords t) (ms0 t) (hs0 t) (ms1 t) (hs1 t) (ms2 t) (hs2 t) scM (Memref.isWhole_whole _) (goesMiddle t h0 h3).1 (goesMiddle t h0 h3).2.1 (goesMiddle t h0 h3).2.2 (iblk V c 0 t) (iblk V c 1 t) xs
abbrev rL (c : Dev nD) (t : Fin cfg1.N) (h3 : t.val % 4 = 3) (xs : Vec F S1024x1 .f32) :=
  runLast (F := F) c (grid1.coords t) (ms0 t) (hs0 t) (ms1 t) (hs1 t) (ms2 t) (hs2 t) scM (Memref.isWhole_whole _) (goesLast t h3).1 (goesLast t h3).2.1 (goesLast t h3).2.2 (iblk V c 0 t) (iblk V c 1 t) xs

/-! ## The accumulator and the output block, point by point -/

/-- What point `t` leaves in the accumulator, from what it found there (`xs`; not consulted at `j = 0`). -/
def stepScr (c : Dev nD) (t : Fin cfg1.N) (xs : Vec F S1024x1 .f32) : Vec F S1024x1 .f32 :=
  if h0 : t.val % 4 = 0 then VS.read (Elt F) (VS.writes (Elt F) VS.junk (rF V c t h0).1)
  else if h3 : t.val % 4 = 3 then VS.read (Elt F) (VS.writes (Elt F) VS.junk (rL V c t h3 xs).2.1)
  else VS.read (Elt F) (VS.writes (Elt F) VS.junk (rM V c t h0 h3 xs).1)

/-- The accumulator after point `n`. -/
def scrAt (c : Dev nD) : (n : ℕ) → n < cfg1.N → Vec F S1024x1 .f32
  | 0, hn => stepScr V c ⟨0, hn⟩ (VS.read (Elt F) VS.junk)
  | n + 1, hn => stepScr V c ⟨n + 1, hn⟩ (scrAt c n (Nat.lt_of_succ_lt hn))

/-- The accumulator as point `t` finds it: what the point before left (nothing named at the very first point). -/
def prevScr (c : Dev nD) (t : Fin cfg1.N) : Vec F S1024x1 .f32 :=
  match t with
  | ⟨0, _⟩ => VS.read (Elt F) VS.junk
  | ⟨n + 1, hn⟩ => scrAt V c n (Nat.lt_of_succ_lt hn)

theorem scrAt_eq (c : Dev nD) (t : Fin cfg1.N) : scrAt V c t.val t.isLt = stepScr V c t (prevScr V c t) := by
  obtain ⟨n, hn⟩ := t
  cases n with
  | zero => rfl
  | succ n => rfl

/-- The output block after point `t`: at `j = 3` the last run's stores; elsewhere nothing is named (the block is
    neither stored nor written back there, and nothing consults this value). -/
def outAt (c : Dev nD) (t : Fin cfg1.N) : Vec F S1x1024x1 .f32 :=
  if h3 : t.val % 4 = 3 then VO.read (Elt F) (VO.writes (Elt F) VO.junk (rL V c t h3 (prevScr V c t)).1)
  else VO.read (Elt F) VO.junk

/-! ## The invariant between points -/

/-- The core's scoped buffers that are neither a staging buffer of this call nor its accumulator, at anything. -/
abbrev restBut (c : Dev nD) : sProp 𝕄 :=
  Pipeline.scopedRestBut (Ix := Unit) (Name := ℕ) (U := UR sig nD τ) (Lvl := ℕ) (Val := Elt F) spec1 c [cc1_scratch0]

/-- What the launch hands the region, with the accumulator split off. -/
theorem PhiA_eq (c : Dev nD) :
    (Pipeline.ΦA spec1 c : sProp 𝕄)
      = iprop(iprop((∃ d, owns (c : Thread nD τ) scM fullShare d) ∗ restBut c) ∗ (∃ r, prngReg c r)) := by
  unfold Pipeline.ΦA
  rw [Pipeline.scopedRest_split_of_list spec1 c [cc1_scratch0] (by decide) (by decide)]
  simp only [Idealize.SL.BI.bigSepL_singleton, scM, owns_whole]; try rfl

/-- Before the first point: what the launch hands over. Afterwards: the accumulator at what the point before left. -/
def PhiS (c : Dev nD) : (n : ℕ) → n ≤ cfg1.N → sProp 𝕄
  | 0, _ => Pipeline.ΦA spec1 c
  | n + 1, hn => iprop(iprop(owns (c : Thread nD τ) scM fullShare (scrAt V c n hn) ∗ restBut c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare (scrAt V c n hn) ∗ restBut c) ∗ (∃ r, prngReg c r)) := rfl
theorem PhiS_pos (c : Dev nD) (t : Fin cfg1.N) (hz : t.val ≠ 0) :
    PhiS V c t.val (Nat.le_of_lt t.isLt) = iprop(iprop(owns (c : Thread nD τ) scM fullShare (prevScr V c t) ∗ restBut c) ∗ (∃ r, prngReg c r)) := by
  obtain ⟨n, hn⟩ := t
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = outAt V c t := by dsimp only [dat]
theorem before0 (c : Dev nD) (t : Fin cfg1.N) (d) : (dat V c).before 0 t d = iblk V c 0 t :=
  before_in0_of V (dat V c) (A_eq V c 0) (after0 V c) t d
theorem before1 (c : Dev nD) (t : Fin cfg1.N) (d) : (dat V c).before 1 t d = iblk V c 1 t :=
  before_in1_of V (dat V c) (A_eq V c 1) (after1 V c) t d

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem idle2 : ∀ t : Fin cfg1.N, ¬ t.val % 4 = 3 → cfg1.idle 2 (grid1.coords t) = true :=
  (by decide +kernel : ∀ t : Fin grid1.N, ¬ t.val % 4 = 3 → cfg1.idle 2 (grid1.coords t) = true)
theorem live2 : ∀ t : Fin cfg1.N, t.val % 4 = 3 → cfg1.idle 2 (grid1.coords t) = false :=
  (by decide +kernel : ∀ t : Fin grid1.N, t.val % 4 = 3 → cfg1.idle 2 (grid1.coords t) = false)
theorem noFlush2 (t : Fin cfg1.N) (h3 : ¬ t.val % 4 = 3) : (cfg1.win 2).flush t = false :=
  Bool.eq_false_iff.mpr fun h => h3 ((flush1_2 t).mp h)

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the point's number mod 4 says which run applies; the
    invariant hands the body the accumulator at what the point before left (at anything at the first point) and takes it
    back at this point's contents; the output block is handed back untouched except at `j = 3`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [scrAt_eq V c t]
  have hN : t.val < 256 := lt_of_lt_of_eq t.isLt (show cfg1.N = 256 from N_1)
  by_cases h0 : t.val % 4 = 0
  · have h3 : ¬ t.val % 4 = 3 := by omega
    rw [Dat.leavesExact_idle (dat V c) 2 t (idle2 t h3) (noFlush2 t h3)]
    unfold stepScr; rw [dif_pos h0]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c t hz]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat V c).leavesExact 2 t = owns (c : Thread nD τ) (ms2 t) fullShare ((dat V c).after 2 t) from by
        unfold Dat.leavesExact; rw [live2 t h3], after2]
      unfold stepScr outAt; rw [dif_neg h0, dif_pos h3, dif_pos h3]
      rw [PhiS_castSucc V c t, PhiS_pos V c t hz]
      iintro ⟨⟨⟨HS, Hrest⟩, Hg⟩, Ho, ⟨%d0, H0⟩, ⟨%d1, H1⟩, ⟨%d2, H2⟩⟩
      iapply ((rL V c t h3 (prevScr V c t)).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverLast c _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (ocoverLast c _ _ _ _ _ _ _ _ _ _ _ _ _ _ _)
    · rw [Dat.leavesExact_idle (dat V c) 2 t (idle2 t h3) (noFlush2 t h3)]
      unfold stepScr; rw [dif_neg h0, dif_neg h3]
      rw [PhiS_castSucc V c t, PhiS_pos V c t hz]
      iintro ⟨⟨⟨HS, Hrest⟩, Hg⟩, Ho, ⟨%d0, H0⟩, ⟨%d1, H1⟩, ⟨%d2, H2⟩⟩
      iapply ((rM V c t h0 h3 (prevScr V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverMiddle c _ _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulator's named contents are
    forgotten. -/
theorem PhiS_out (c : Dev nD) (n : ℕ) (h : n ≤ cfg1.N) (hz : n ≠ 0) : PhiS V c n h ⊢ Pipeline.ΦA spec1 c := by
  cases n with
  | zero => exact absurd rfl hz
  | succ n =>
    rw [PhiS_succ, PhiA_eq]
    iintro ⟨⟨HS, Hrest⟩, Hg⟩
    isplitl [HS Hrest]
    · isplitl [HS]
      · iexists _; iexact HS
      iexact Hrest
    iexact Hg

/-- The same after the last point. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact PhiS_out V c _ _ (by rw [Fin.val_last]; have : cfg1.N = 256 := N_1; omega)

end Region

end Cert.Kernel.R1

end
-- ==== Proof.KB.Assembly.lean ====
/-
  The whole program as a run: pallas_call 0, the reshape of its result, pallas_call 1, then the host operations that
  reduce the two nearest-neighbour distance arrays and the regulariser to the scalar result. The buffers' contents
  between the four items are named (`W0` at launch … `W4` at the end): a pallas_call changes only its output array,
  to what its write-backs leave (`Dat.arrAt`); a host stretch is the fold of its operations. Every weakly fair
  execution ends with every unscoped buffer at `W4`, in particular the arguments as launched and the result at
  `W4`'s value.
-/
import proofs.«171192_j43654047597211_1_alg».proof.Proof.KB.Region0
import proofs.«171192_j43654047597211_1_alg».proof.Proof.KB.Region1
import proofs.«171192_j43654047597211_1_alg».proof.Proof.Gen.Kernel.Regions

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After pallas_call 0: its arrays at what the pipeline leaves, every other buffer as entered. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the reshape of pallas_call 0's result. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After pallas_call 1. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- At the end: after the remaining host operations. -/
abbrev W4 : Dev nD → Valuation τ sig (Elt F) := fun c => StableHlo.after hostOps2 (W3 m ρ c)

/-! ## No item writes an argument -/

theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := (W3_arr m ρ c 1).trans (((R1.dat (V2 m ρ) c).arrAt_in 1 rfl _).trans (R1.A_eq (V2 m ρ) c 1))
    _ = W1 m ρ c (Proc.devRef .tc main_arg0) := W2_of m ρ c main_arg0 (by decide)
    _ = W0 m ρ c (Proc.devRef .tc main_arg0) := (W1_arr m ρ c 0).trans (((R0.dat (V0 m ρ) c).arrAt_in 0 rfl _).trans (R0.A_eq (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := (W3_arr m ρ c 0).trans (((R1.dat (V2 m ρ) c).arrAt_in 0 rfl _).trans (R1.A_eq (V2 m ρ) c 0))
    _ = W1 m ρ c (Proc.devRef .tc main_arg1) := W2_of m ρ c main_arg1 (by decide)
    _ = W0 m ρ c (Proc.devRef .tc main_arg1) := (W1_arr m ρ c 1).trans (((R0.dat (V0 m ρ) c).arrAt_in 1 rfl _).trans (R0.A_eq (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents — a literal match on the pipeline's number. -/
def pdats : (p : Fin 2) → (c : Dev nD) → Dat τ (Elt F) Unit ℕ (UR sig nD τ) ℕ (Pipeline.pin (pcfgs (F := F)) adm p) c
  | ⟨0, _⟩ => fun c => R0.dat (V0 m ρ) c
  | ⟨1, _⟩ => fun c => R1.dat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- pallas_call 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from R0.hout (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from R1.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with the
    result buffer at `W4`'s value and each argument as launched. -/
theorem run_main : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel.Asm

end
-- ==== Proof.KI.Runs0.lean ====
/-
  The body of pallas_call 0 on any whole staging buffers, in each of the three ways the reduction axis' coordinate
  `j = i 2` sends it through its three conditionals:
    first   (j = 0):      the tile's row minima are stored into the scratch accumulator;
    middle  (0 < j < 3):  the accumulator is replaced by its minimum with the tile's row minima;
    last    (j = 3):      the same, and the accumulator is then copied into the output block.
  In every case the two input blocks are handed back as found; in the first two the output block is not touched.
  Each run is stated with the list of stores the accumulator (and, in the last case, the output block) ends with as a
  witness that the symbolic execution finds.
-/
import proofs.«171192_j43654047597211_1_alg».proof.Proof.Gen.KernelIdeal.Launch
import proofs.«171192_j43654047597211_1_alg».proof.Proof.Gen.KernelIdeal.Skeleton
import proofs.«171192_j43654047597211_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the grid coordinates -/

/-- `j = 0`, as the body tests it. -/
abbrev condFirst (i : grid0.Coords) : Prop := (Scalar.cmpi .ne (Scalar.extui (Scalar.cmpi .eq (BitVec.ofNat 32 (i 2).val) 0#32)) 0#32) = 1#1
/-- `j > 0`, as the body tests it. -/
abbrev condLater (i : grid0.Coords) : Prop := (Scalar.cmpi .ne (Scalar.extui (Scalar.cmpi .sgt (BitVec.ofNat 32 (i 2).val) 0#32)) 0#32) = 1#1
/-- `j = 3` (the last step of the reduction axis), as the body tests it. -/
abbrev condLast (i : grid0.Coords) : Prop := k0_cond3 i = 1#1

/-- The grid is walked with the reduction axis innermost, four steps long: `j` is the point's number mod 4. -/
theorem hcondFirst : ∀ t : Fin cfg0.N, condFirst (grid0.coords t) ↔ t.val % 4 = 0 :=
  (by decide +kernel : ∀ t : Fin grid0.N, condFirst (grid0.coords t) ↔ t.val % 4 = 0)
theorem hcondLater : ∀ t : Fin cfg0.N, condLater (grid0.coords t) ↔ ¬ t.val % 4 = 0 :=
  (by decide +kernel : ∀ t : Fin grid0.N, condLater (grid0.coords t) ↔ ¬ t.val % 4 = 0)
theorem hcondLast : ∀ t : Fin cfg0.N, condLast (grid0.coords t) ↔ t.val % 4 = 3 :=
  (by decide +kernel : ∀ t : Fin grid0.N, condLast (grid0.coords t) ↔ t.val % 4 = 3)

/-! ## The runs -/

set_option maxHeartbeats 2000000 in
/-- First step of the reduction axis: the accumulator, whatever it held, ends with the stores `LS`. -/
noncomputable def runFirst (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_min_kernel i arg3 harg3 arg4 harg4 arg5 harg5 arg6 harg6) K } := by
  refine ⟨?_, fun xo E K => ?run⟩
  case run =>
    simp only [cc0__chamfer_min_kernel_eq_skeleton]; unfold cc0__chamfer_min_kernel_skel
    unfold owns
    iintro ⟨⟨%f0, %hf0, H0⟩, ⟨%f1, %hf1, H1⟩, ⟨%f2, %hf2, H2⟩, ⟨%d, %fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- A middle step: the accumulator at `xs` ends with the stores `LS`. -/
noncomputable def runMiddle (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_min_kernel i arg3 harg3 arg4 harg4 arg5 harg5 arg6 harg6) K } := by
  refine ⟨?_, fun xo E K => ?run⟩
  case run =>
    simp only [cc0__chamfer_min_kernel_eq_skeleton]; unfold cc0__chamfer_min_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- The last step: the accumulator at `xs` ends with the stores `LS`, the output block, whatever it held, with `LO`. -/
noncomputable def runLast (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) :
    Σ' (LO : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_min_kernel i arg3 harg3 arg4 harg4 arg5 harg5 arg6 harg6) K } := by
  refine ⟨?_, ?_, fun E K => ?run⟩
  case run =>
    simp only [cc0__chamfer_min_kernel_eq_skeleton]; unfold cc0__chamfer_min_kernel_skel
    unfold owns
    iintro ⟨⟨%f0, %hf0, H0⟩, ⟨%f1, %hf1, H1⟩, ⟨%d2, %f2, %hf2, H2⟩, ⟨%fs, %hfs, HS⟩, Hk⟩
    obtain rfl := harg3.eq_unread hf0; obtain rfl := harg4.eq_unread hf1; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.R0

end
-- ==== Proof.KI.Region0.lean ====
/-
  pallas_call 0 from the contents `V` its region is entered at: what each window's staging buffer holds after the body
  at every grid point, and the body's obligation towards the pipeline.

  The grid is walked with the reduction axis `j` innermost (four steps), so point `t` has `j = t mod 4`. The input
  blocks are handed back as fetched. The scratch accumulator is carried from point to point: after point `t` it holds
  `scrAt t` — at `j = 0` the tile's row minima, at a later `j` the minimum of what the point before left with the tile's
  row minima. The output block is stored only at `j = 3` (from the accumulator) and is written back there; at the other
  points the body does not touch it.
-/
import proofs.«171192_j43654047597211_1_alg».proof.Proof.KI.Runs0

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores each run ends with cover their buffers -/

theorem scoverFirst (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) (y : S1024x1.Idx) :
    ∃ pc ∈ (runFirst (F := F) c i arg3 harg3 arg4 harg4 arg5 harg5 arg6 harg6 hc1 hc2 hc3 x0 x1).1, y ∈ pc.1.set :=
  View.cover_of_tiledL (runFirst (F := F) c i arg3 harg3 arg4 harg4 arg5 harg5 arg6 harg6 hc1 hc2 hc3 x0 x1).1 S1024x1.size (by sl_kernel_rfl) y

theorem scoverMiddle (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) (y : S1024x1.Idx) :
    ∃ pc ∈ (runMiddle (F := F) c i arg3 harg3 arg4 harg4 arg5 harg5 arg6 harg6 hc1 hc2 hc3 x0 x1 xs).1, y ∈ pc.1.set :=
  View.cover_of_tiledL (runMiddle (F := F) c i arg3 harg3 arg4 harg4 arg5 harg5 arg6 harg6 hc1 hc2 hc3 x0 x1 xs).1 S1024x1.size (by sl_kernel_rfl) y

theorem scoverLast (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1024x1.Idx) :
    ∃ pc ∈ (runLast (F := F) c i arg3 harg3 arg4 harg4 arg5 harg5 arg6 harg6 hc1 hc2 hc3 x0 x1 xs).2.1, y ∈ pc.1.set :=
  View.cover_of_tiledL (runLast (F := F) c i arg3 harg3 arg4 harg4 arg5 harg5 arg6 harg6 hc1 hc2 hc3 x0 x1 xs).2.1 S1024x1.size (by sl_kernel_rfl) y

theorem ocoverLast (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1x1024x1.Idx) :
    ∃ pc ∈ (runLast (F := F) c i arg3 harg3 arg4 harg4 arg5 harg5 arg6 harg6 hc1 hc2 hc3 x0 x1 xs).1, y ∈ pc.1.set :=
  View.cover_of_tiledL (runLast (F := F) c i arg3 harg3 arg4 harg4 arg5 harg5 arg6 harg6 hc1 hc2 hc3 x0 x1 xs).1 S1x1024x1.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's buffers at a point -/

abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
/-- The scratch accumulator: a whole scoped buffer of the kernel's own. -/
abbrev scM : Memref sig .tc .vmem S1024x1 .f32 := Memref.whole cc0_scratch0
abbrev VS : View sig .tc .vmem S1024x1 .f32 := scM.view
/-- One staging buffer of the output window, through which its contents are stated (the choice does not matter). -/
abbrev VO : View sig .tc .vmem S1x1024x1 .f32 := (Memref.whole cc0_stg2_0 : Memref sig .tc .vmem S1x1024x1 .f32).view

/-! ## Which way a point goes -/

theorem goesFirst (t : Fin cfg0.N) (h0 : t.val % 4 = 0) :
    condFirst (grid0.coords t) ∧ ¬condLater (grid0.coords t) ∧ ¬condLast (grid0.coords t) :=
  ⟨(hcondFirst t).mpr h0, fun h => (hcondLater t).mp h h0, fun h => by have := (hcondLast t).mp h; omega⟩
theorem goesMiddle (t : Fin cfg0.N) (h0 : ¬ t.val % 4 = 0) (h3 : ¬ t.val % 4 = 3) :
    ¬condFirst (grid0.coords t) ∧ condLater (grid0.coords t) ∧ ¬condLast (grid0.coords t) :=
  ⟨fun h => h0 ((hcondFirst t).mp h), (hcondLater t).mpr h0, fun h => h3 ((hcondLast t).mp h)⟩
theorem goesLast (t : Fin cfg0.N) (h3 : t.val % 4 = 3) :
    ¬condFirst (grid0.coords t) ∧ condLater (grid0.coords t) ∧ condLast (grid0.coords t) :=
  ⟨fun h => by have := (hcondFirst t).mp h; omega, (hcondLater t).mpr (by omega), (hcondLast t).mpr h3⟩

/-- The three runs at point `t`, on the buffers the pipeline calls the body with and the blocks found there. -/
abbrev rF (c : Dev nD) (t : Fin cfg0.N) (h0 : t.val % 4 = 0) :=
  runFirst (F := F) c (grid0.coords t) (ms0 t) (hs0 t) (ms1 t) (hs1 t) (ms2 t) (hs2 t) scM (Memref.isWhole_whole _) (goesFirst t h0).1 (goesFirst t h0).2.1 (goesFirst t h0).2.2 (iblk V c 0 t) (iblk V c 1 t)
abbrev rM (c : Dev nD) (t : Fin cfg0.N) (h0 : ¬ t.val % 4 = 0) (h3 : ¬ t.val % 4 = 3) (xs : Vec F S1024x1 .f32) :=
  runMiddle (F := F) c (grid0.coords t) (ms0 t) (hs0 t) (ms1 t) (hs1 t) (ms2 t) (hs2 t) scM (Memref.isWhole_whole _) (goesMiddle t h0 h3).1 (goesMiddle t h0 h3).2.1 (goesMiddle t h0 h3).2.2 (iblk V c 0 t) (iblk V c 1 t) xs
abbrev rL (c : Dev nD) (t : Fin cfg0.N) (h3 : t.val % 4 = 3) (xs : Vec F S1024x1 .f32) :=
  runLast (F := F) c (grid0.coords t) (ms0 t) (hs0 t) (ms1 t) (hs1 t) (ms2 t) (hs2 t) scM (Memref.isWhole_whole _) (goesLast t h3).1 (goesLast t h3).2.1 (goesLast t h3).2.2 (iblk V c 0 t) (iblk V c 1 t) xs

/-! ## The accumulator and the output block, point by point -/

/-- What point `t` leaves in the accumulator, from what it found there (`xs`; not consulted at `j = 0`). -/
def stepScr (c : Dev nD) (t : Fin cfg0.N) (xs : Vec F S1024x1 .f32) : Vec F S1024x1 .f32 :=
  if h0 : t.val % 4 = 0 then VS.read (Elt F) (VS.writes (Elt F) VS.junk (rF V c t h0).1)
  else if h3 : t.val % 4 = 3 then VS.read (Elt F) (VS.writes (Elt F) VS.junk (rL V c t h3 xs).2.1)
  else VS.read (Elt F) (VS.writes (Elt F) VS.junk (rM V c t h0 h3 xs).1)

/-- The accumulator after point `n`. -/
def scrAt (c : Dev nD) : (n : ℕ) → n < cfg0.N → Vec F S1024x1 .f32
  | 0, hn => stepScr V c ⟨0, hn⟩ (VS.read (Elt F) VS.junk)
  | n + 1, hn => stepScr V c ⟨n + 1, hn⟩ (scrAt c n (Nat.lt_of_succ_lt hn))

/-- The accumulator as point `t` finds it: what the point before left (nothing named at the very first point). -/
def prevScr (c : Dev nD) (t : Fin cfg0.N) : Vec F S1024x1 .f32 :=
  match t with
  | ⟨0, _⟩ => VS.read (Elt F) VS.junk
  | ⟨n + 1, hn⟩ => scrAt V c n (Nat.lt_of_succ_lt hn)

theorem scrAt_eq (c : Dev nD) (t : Fin cfg0.N) : scrAt V c t.val t.isLt = stepScr V c t (prevScr V c t) := by
  obtain ⟨n, hn⟩ := t
  cases n with
  | zero => rfl
  | succ n => rfl

/-- The output block after point `t`: at `j = 3` the last run's stores; elsewhere nothing is named (the block is
    neither stored nor written back there, and nothing consults this value). -/
def outAt (c : Dev nD) (t : Fin cfg0.N) : Vec F S1x1024x1 .f32 :=
  if h3 : t.val % 4 = 3 then VO.read (Elt F) (VO.writes (Elt F) VO.junk (rL V c t h3 (prevScr V c t)).1)
  else VO.read (Elt F) VO.junk

/-! ## The invariant between points -/

/-- The core's scoped buffers that are neither a staging buffer of this call nor its accumulator, at anything. -/
abbrev restBut (c : Dev nD) : sProp 𝕄 :=
  Pipeline.scopedRestBut (Ix := Unit) (Name := ℕ) (U := UR sig nD τ) (Lvl := ℕ) (Val := Elt F) spec0 c [cc0_scratch0]

/-- What the launch hands the region, with the accumulator split off. -/
theorem PhiA_eq (c : Dev nD) :
    (Pipeline.ΦA spec0 c : sProp 𝕄)
      = iprop(iprop((∃ d, owns (c : Thread nD τ) scM fullShare d) ∗ restBut c) ∗ (∃ r, prngReg c r)) := by
  unfold Pipeline.ΦA
  rw [Pipeline.scopedRest_split_of_list spec0 c [cc0_scratch0] (by decide) (by decide)]
  simp only [Idealize.SL.BI.bigSepL_singleton, scM, owns_whole]; try rfl

/-- Before the first point: what the launch hands over. Afterwards: the accumulator at what the point before left. -/
def PhiS (c : Dev nD) : (n : ℕ) → n ≤ cfg0.N → sProp 𝕄
  | 0, _ => Pipeline.ΦA spec0 c
  | n + 1, hn => iprop(iprop(owns (c : Thread nD τ) scM fullShare (scrAt V c n hn) ∗ restBut c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (scrAt V c n hn) ∗ restBut c) ∗ (∃ r, prngReg c r)) := rfl
theorem PhiS_pos (c : Dev nD) (t : Fin cfg0.N) (hz : t.val ≠ 0) :
    PhiS V c t.val (Nat.le_of_lt t.isLt) = iprop(iprop(owns (c : Thread nD τ) scM fullShare (prevScr V c t) ∗ restBut c) ∗ (∃ r, prngReg c r)) := by
  obtain ⟨n, hn⟩ := t
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = outAt V c t := by dsimp only [dat]
theorem before0 (c : Dev nD) (t : Fin cfg0.N) (d) : (dat V c).before 0 t d = iblk V c 0 t :=
  before_in0_of V (dat V c) (A_eq V c 0) (after0 V c) t d
theorem before1 (c : Dev nD) (t : Fin cfg0.N) (d) : (dat V c).before 1 t d = iblk V c 1 t :=
  before_in1_of V (dat V c) (A_eq V c 1) (after1 V c) t d

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem idle2 : ∀ t : Fin cfg0.N, ¬ t.val % 4 = 3 → cfg0.idle 2 (grid0.coords t) = true :=
  (by decide +kernel : ∀ t : Fin grid0.N, ¬ t.val % 4 = 3 → cfg0.idle 2 (grid0.coords t) = true)
theorem live2 : ∀ t : Fin cfg0.N, t.val % 4 = 3 → cfg0.idle 2 (grid0.coords t) = false :=
  (by decide +kernel : ∀ t : Fin grid0.N, t.val % 4 = 3 → cfg0.idle 2 (grid0.coords t) = false)
theorem noFlush2 (t : Fin cfg0.N) (h3 : ¬ t.val % 4 = 3) : (cfg0.win 2).flush t = false :=
  Bool.eq_false_iff.mpr fun h => h3 ((flush0_2 t).mp h)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the point's number mod 4 says which run applies; the
    invariant hands the body the accumulator at what the point before left (at anything at the first point) and takes it
    back at this point's contents; the output block is handed back untouched except at `j = 3`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [scrAt_eq V c t]
  have hN : t.val < 256 := lt_of_lt_of_eq t.isLt (show cfg0.N = 256 from N_0)
  by_cases h0 : t.val % 4 = 0
  · have h3 : ¬ t.val % 4 = 3 := by omega
    rw [Dat.leavesExact_idle (dat V c) 2 t (idle2 t h3) (noFlush2 t h3)]
    unfold stepScr; rw [dif_pos h0]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c t hz]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat V c).leavesExact 2 t = owns (c : Thread nD τ) (ms2 t) fullShare ((dat V c).after 2 t) from by
        unfold Dat.leavesExact; rw [live2 t h3], after2]
      unfold stepScr outAt; rw [dif_neg h0, dif_pos h3, dif_pos h3]
      rw [PhiS_castSucc V c t, PhiS_pos V c t hz]
      iintro ⟨⟨⟨HS, Hrest⟩, Hg⟩, Ho, ⟨%d0, H0⟩, ⟨%d1, H1⟩, ⟨%d2, H2⟩⟩
      iapply ((rL V c t h3 (prevScr V c t)).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverLast c _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (ocoverLast c _ _ _ _ _ _ _ _ _ _ _ _ _ _ _)
    · rw [Dat.leavesExact_idle (dat V c) 2 t (idle2 t h3) (noFlush2 t h3)]
      unfold stepScr; rw [dif_neg h0, dif_neg h3]
      rw [PhiS_castSucc V c t, PhiS_pos V c t hz]
      iintro ⟨⟨⟨HS, Hrest⟩, Hg⟩, Ho, ⟨%d0, H0⟩, ⟨%d1, H1⟩, ⟨%d2, H2⟩⟩
      iapply ((rM V c t h0 h3 (prevScr V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverMiddle c _ _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulator's named contents are
    forgotten. -/
theorem PhiS_out (c : Dev nD) (n : ℕ) (h : n ≤ cfg0.N) (hz : n ≠ 0) : PhiS V c n h ⊢ Pipeline.ΦA spec0 c := by
  cases n with
  | zero => exact absurd rfl hz
  | succ n =>
    rw [PhiS_succ, PhiA_eq]
    iintro ⟨⟨HS, Hrest⟩, Hg⟩
    isplitl [HS Hrest]
    · isplitl [HS]
      · iexists _; iexact HS
      iexact Hrest
    iexact Hg

/-- The same after the last point. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_out V c _ _ (by rw [Fin.val_last]; have : cfg0.N = 256 := N_0; omega)

end Region

end Cert.KernelIdeal.R0

end
-- ==== Proof.KI.Runs1.lean ====
/-
  The body of pallas_call 1 on any whole staging buffers, in each of the three ways the reduction axis' coordinate
  `j = i 2` sends it through its three conditionals:
    first   (j = 0):      the tile's row minima are stored into the scratch accumulator;
    middle  (0 < j < 3):  the accumulator is replaced by its minimum with the tile's row minima;
    last    (j = 3):      the same, and the accumulator is then copied into the output block.
  In every case the two input blocks are handed back as found; in the first two the output block is not touched.
  Each run is stated with the list of stores the accumulator (and, in the last case, the output block) ends with as a
  witness that the symbolic execution finds.
-/
import proofs.«171192_j43654047597211_1_alg».proof.Proof.Gen.KernelIdeal.Launch
import proofs.«171192_j43654047597211_1_alg».proof.Proof.Gen.KernelIdeal.Skeleton
import proofs.«171192_j43654047597211_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, as the body computes them from the grid coordinates -/

/-- `j = 0`, as the body tests it. -/
abbrev condFirst (i : grid1.Coords) : Prop := (Scalar.cmpi .ne (Scalar.extui (Scalar.cmpi .eq (BitVec.ofNat 32 (i 2).val) 0#32)) 0#32) = 1#1
/-- `j > 0`, as the body tests it. -/
abbrev condLater (i : grid1.Coords) : Prop := (Scalar.cmpi .ne (Scalar.extui (Scalar.cmpi .sgt (BitVec.ofNat 32 (i 2).val) 0#32)) 0#32) = 1#1
/-- `j = 3` (the last step of the reduction axis), as the body tests it. -/
abbrev condLast (i : grid1.Coords) : Prop := k1_cond3 i = 1#1

/-- The grid is walked with the reduction axis innermost, four steps long: `j` is the point's number mod 4. -/
theorem hcondFirst : ∀ t : Fin cfg1.N, condFirst (grid1.coords t) ↔ t.val % 4 = 0 :=
  (by decide +kernel : ∀ t : Fin grid1.N, condFirst (grid1.coords t) ↔ t.val % 4 = 0)
theorem hcondLater : ∀ t : Fin cfg1.N, condLater (grid1.coords t) ↔ ¬ t.val % 4 = 0 :=
  (by decide +kernel : ∀ t : Fin grid1.N, condLater (grid1.coords t) ↔ ¬ t.val % 4 = 0)
theorem hcondLast : ∀ t : Fin cfg1.N, condLast (grid1.coords t) ↔ t.val % 4 = 3 :=
  (by decide +kernel : ∀ t : Fin grid1.N, condLast (grid1.coords t) ↔ t.val % 4 = 3)

/-! ## The runs -/

set_option maxHeartbeats 2000000 in
/-- First step of the reduction axis: the accumulator, whatever it held, ends with the stores `LS`. -/
noncomputable def runFirst (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_min_kernel i arg3 harg3 arg4 harg4 arg5 harg5 arg6 harg6) K } := by
  refine ⟨?_, fun xo E K => ?run⟩
  case run =>
    simp only [cc1__chamfer_min_kernel_eq_skeleton]; unfold cc1__chamfer_min_kernel_skel
    unfold owns
    iintro ⟨⟨%f0, %hf0, H0⟩, ⟨%f1, %hf1, H1⟩, ⟨%f2, %hf2, H2⟩, ⟨%d, %fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- A middle step: the accumulator at `xs` ends with the stores `LS`. -/
noncomputable def runMiddle (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) :
    { LS : List (View.Piece (Elt F) S1024x1 .f32) //
      ∀ (xo : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_min_kernel i arg3 harg3 arg4 harg4 arg5 harg5 arg6 harg6) K } := by
  refine ⟨?_, fun xo E K => ?run⟩
  case run =>
    simp only [cc1__chamfer_min_kernel_eq_skeleton]; unfold cc1__chamfer_min_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 2000000 in
/-- The last step: the accumulator at `xs` ends with the stores `LS`, the output block, whatever it held, with `LO`. -/
noncomputable def runLast (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) :
    Σ' (LO : List (View.Piece (Elt F) S1x1024x1 .f32)), { LS : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1__chamfer_min_kernel i arg3 harg3 arg4 harg4 arg5 harg5 arg6 harg6) K } := by
  refine ⟨?_, ?_, fun E K => ?run⟩
  case run =>
    simp only [cc1__chamfer_min_kernel_eq_skeleton]; unfold cc1__chamfer_min_kernel_skel
    unfold owns
    iintro ⟨⟨%f0, %hf0, H0⟩, ⟨%f1, %hf1, H1⟩, ⟨%d2, %f2, %hf2, H2⟩, ⟨%fs, %hfs, HS⟩, Hk⟩
    obtain rfl := harg3.eq_unread hf0; obtain rfl := harg4.eq_unread hf1; obtain rfl := harg6.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.R1

end
-- ==== Proof.KI.Region1.lean ====
/-
  pallas_call 1 from the contents `V` its region is entered at: what each window's staging buffer holds after the body
  at every grid point, and the body's obligation towards the pipeline.

  The grid is walked with the reduction axis `j` innermost (four steps), so point `t` has `j = t mod 4`. The input
  blocks are handed back as fetched. The scratch accumulator is carried from point to point: after point `t` it holds
  `scrAt t` — at `j = 0` the tile's row minima, at a later `j` the minimum of what the point before left with the tile's
  row minima. The output block is stored only at `j = 3` (from the accumulator) and is written back there; at the other
  points the body does not touch it.
-/
import proofs.«171192_j43654047597211_1_alg».proof.Proof.KI.Runs1

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores each run ends with cover their buffers -/

theorem scoverFirst (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : condFirst i) (hc2 : ¬condLater i) (hc3 : ¬condLast i) (x0 x1 : Vec F S1x1024x3 .f32) (y : S1024x1.Idx) :
    ∃ pc ∈ (runFirst (F := F) c i arg3 harg3 arg4 harg4 arg5 harg5 arg6 harg6 hc1 hc2 hc3 x0 x1).1, y ∈ pc.1.set :=
  View.cover_of_tiledL (runFirst (F := F) c i arg3 harg3 arg4 harg4 arg5 harg5 arg6 harg6 hc1 hc2 hc3 x0 x1).1 S1024x1.size (by sl_kernel_rfl) y

theorem scoverMiddle (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : ¬condLast i) (x0 x1 : Vec F S1x1024x3 .f32) (xs : Vec F S1024x1 .f32) (y : S1024x1.Idx) :
    ∃ pc ∈ (runMiddle (F := F) c i arg3 harg3 arg4 harg4 arg5 harg5 arg6 harg6 hc1 hc2 hc3 x0 x1 xs).1, y ∈ pc.1.set :=
  View.cover_of_tiledL (runMiddle (F := F) c i arg3 harg3 arg4 harg4 arg5 harg5 arg6 harg6 hc1 hc2 hc3 x0 x1 xs).1 S1024x1.size (by sl_kernel_rfl) y

theorem scoverLast (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1024x1.Idx) :
    ∃ pc ∈ (runLast (F := F) c i arg3 harg3 arg4 harg4 arg5 harg5 arg6 harg6 hc1 hc2 hc3 x0 x1 xs).2.1, y ∈ pc.1.set :=
  View.cover_of_tiledL (runLast (F := F) c i arg3 harg3 arg4 harg4 arg5 harg5 arg6 harg6 hc1 hc2 hc3 x0 x1 xs).2.1 S1024x1.size (by sl_kernel_rfl) y

theorem ocoverLast (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1024x1 .f32) (harg5 : arg5.IsWhole) (arg6 : Memref sig .tc .vmem S1024x1 .f32) (harg6 : arg6.IsWhole)
    (hc1 : ¬condFirst i) (hc2 : condLater i) (hc3 : condLast i) (x0 x1 : Vec F S1x1024x3 .f32) (xs : Vec F S1024x1 .f32) (y : S1x1024x1.Idx) :
    ∃ pc ∈ (runLast (F := F) c i arg3 harg3 arg4 harg4 arg5 harg5 arg6 harg6 hc1 hc2 hc3 x0 x1 xs).1, y ∈ pc.1.set :=
  View.cover_of_tiledL (runLast (F := F) c i arg3 harg3 arg4 harg4 arg5 harg5 arg6 harg6 hc1 hc2 hc3 x0 x1 xs).1 S1x1024x1.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's buffers at a point -/

abbrev ms0 (t : Fin cfg1.N) : Memref sig .tc .vmem S1x1024x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1 .f32 := win1_2.stage (cfg1.slots t 2)
abbrev hs2 (t : Fin cfg1.N) : (ms2 t).IsWhole := hstage1_2 ((cfg1.slots t 2).cast nbuf1_2)
/-- The scratch accumulator: a whole scoped buffer of the kernel's own. -/
abbrev scM : Memref sig .tc .vmem S1024x1 .f32 := Memref.whole cc1_scratch0
abbrev VS : View sig .tc .vmem S1024x1 .f32 := scM.view
/-- One staging buffer of the output window, through which its contents are stated (the choice does not matter). -/
abbrev VO : View sig .tc .vmem S1x1024x1 .f32 := (Memref.whole cc1_stg2_0 : Memref sig .tc .vmem S1x1024x1 .f32).view

/-! ## Which way a point goes -/

theorem goesFirst (t : Fin cfg1.N) (h0 : t.val % 4 = 0) :
    condFirst (grid1.coords t) ∧ ¬condLater (grid1.coords t) ∧ ¬condLast (grid1.coords t) :=
  ⟨(hcondFirst t).mpr h0, fun h => (hcondLater t).mp h h0, fun h => by have := (hcondLast t).mp h; omega⟩
theorem goesMiddle (t : Fin cfg1.N) (h0 : ¬ t.val % 4 = 0) (h3 : ¬ t.val % 4 = 3) :
    ¬condFirst (grid1.coords t) ∧ condLater (grid1.coords t) ∧ ¬condLast (grid1.coords t) :=
  ⟨fun h => h0 ((hcondFirst t).mp h), (hcondLater t).mpr h0, fun h => h3 ((hcondLast t).mp h)⟩
theorem goesLast (t : Fin cfg1.N) (h3 : t.val % 4 = 3) :
    ¬condFirst (grid1.coords t) ∧ condLater (grid1.coords t) ∧ condLast (grid1.coords t) :=
  ⟨fun h => by have := (hcondFirst t).mp h; omega, (hcondLater t).mpr (by omega), (hcondLast t).mpr h3⟩

/-- The three runs at point `t`, on the buffers the pipeline calls the body with and the blocks found there. -/
abbrev rF (c : Dev nD) (t : Fin cfg1.N) (h0 : t.val % 4 = 0) :=
  runFirst (F := F) c (grid1.coords t) (ms0 t) (hs0 t) (ms1 t) (hs1 t) (ms2 t) (hs2 t) scM (Memref.isWhole_whole _) (goesFirst t h0).1 (goesFirst t h0).2.1 (goesFirst t h0).2.2 (iblk V c 0 t) (iblk V c 1 t)
abbrev rM (c : Dev nD) (t : Fin cfg1.N) (h0 : ¬ t.val % 4 = 0) (h3 : ¬ t.val % 4 = 3) (xs : Vec F S1024x1 .f32) :=
  runMiddle (F := F) c (grid1.coords t) (ms0 t) (hs0 t) (ms1 t) (hs1 t) (ms2 t) (hs2 t) scM (Memref.isWhole_whole _) (goesMiddle t h0 h3).1 (goesMiddle t h0 h3).2.1 (goesMiddle t h0 h3).2.2 (iblk V c 0 t) (iblk V c 1 t) xs
abbrev rL (c : Dev nD) (t : Fin cfg1.N) (h3 : t.val % 4 = 3) (xs : Vec F S1024x1 .f32) :=
  runLast (F := F) c (grid1.coords t) (ms0 t) (hs0 t) (ms1 t) (hs1 t) (ms2 t) (hs2 t) scM (Memref.isWhole_whole _) (goesLast t h3).1 (goesLast t h3).2.1 (goesLast t h3).2.2 (iblk V c 0 t) (iblk V c 1 t) xs

/-! ## The accumulator and the output block, point by point -/

/-- What point `t` leaves in the accumulator, from what it found there (`xs`; not consulted at `j = 0`). -/
def stepScr (c : Dev nD) (t : Fin cfg1.N) (xs : Vec F S1024x1 .f32) : Vec F S1024x1 .f32 :=
  if h0 : t.val % 4 = 0 then VS.read (Elt F) (VS.writes (Elt F) VS.junk (rF V c t h0).1)
  else if h3 : t.val % 4 = 3 then VS.read (Elt F) (VS.writes (Elt F) VS.junk (rL V c t h3 xs).2.1)
  else VS.read (Elt F) (VS.writes (Elt F) VS.junk (rM V c t h0 h3 xs).1)

/-- The accumulator after point `n`. -/
def scrAt (c : Dev nD) : (n : ℕ) → n < cfg1.N → Vec F S1024x1 .f32
  | 0, hn => stepScr V c ⟨0, hn⟩ (VS.read (Elt F) VS.junk)
  | n + 1, hn => stepScr V c ⟨n + 1, hn⟩ (scrAt c n (Nat.lt_of_succ_lt hn))

/-- The accumulator as point `t` finds it: what the point before left (nothing named at the very first point). -/
def prevScr (c : Dev nD) (t : Fin cfg1.N) : Vec F S1024x1 .f32 :=
  match t with
  | ⟨0, _⟩ => VS.read (Elt F) VS.junk
  | ⟨n + 1, hn⟩ => scrAt V c n (Nat.lt_of_succ_lt hn)

theorem scrAt_eq (c : Dev nD) (t : Fin cfg1.N) : scrAt V c t.val t.isLt = stepScr V c t (prevScr V c t) := by
  obtain ⟨n, hn⟩ := t
  cases n with
  | zero => rfl
  | succ n => rfl

/-- The output block after point `t`: at `j = 3` the last run's stores; elsewhere nothing is named (the block is
    neither stored nor written back there, and nothing consults this value). -/
def outAt (c : Dev nD) (t : Fin cfg1.N) : Vec F S1x1024x1 .f32 :=
  if h3 : t.val % 4 = 3 then VO.read (Elt F) (VO.writes (Elt F) VO.junk (rL V c t h3 (prevScr V c t)).1)
  else VO.read (Elt F) VO.junk

/-! ## The invariant between points -/

/-- The core's scoped buffers that are neither a staging buffer of this call nor its accumulator, at anything. -/
abbrev restBut (c : Dev nD) : sProp 𝕄 :=
  Pipeline.scopedRestBut (Ix := Unit) (Name := ℕ) (U := UR sig nD τ) (Lvl := ℕ) (Val := Elt F) spec1 c [cc1_scratch0]

/-- What the launch hands the region, with the accumulator split off. -/
theorem PhiA_eq (c : Dev nD) :
    (Pipeline.ΦA spec1 c : sProp 𝕄)
      = iprop(iprop((∃ d, owns (c : Thread nD τ) scM fullShare d) ∗ restBut c) ∗ (∃ r, prngReg c r)) := by
  unfold Pipeline.ΦA
  rw [Pipeline.scopedRest_split_of_list spec1 c [cc1_scratch0] (by decide) (by decide)]
  simp only [Idealize.SL.BI.bigSepL_singleton, scM, owns_whole]; try rfl

/-- Before the first point: what the launch hands over. Afterwards: the accumulator at what the point before left. -/
def PhiS (c : Dev nD) : (n : ℕ) → n ≤ cfg1.N → sProp 𝕄
  | 0, _ => Pipeline.ΦA spec1 c
  | n + 1, hn => iprop(iprop(owns (c : Thread nD τ) scM fullShare (scrAt V c n hn) ∗ restBut c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare (scrAt V c n hn) ∗ restBut c) ∗ (∃ r, prngReg c r)) := rfl
theorem PhiS_pos (c : Dev nD) (t : Fin cfg1.N) (hz : t.val ≠ 0) :
    PhiS V c t.val (Nat.le_of_lt t.isLt) = iprop(iprop(owns (c : Thread nD τ) scM fullShare (prevScr V c t) ∗ restBut c) ∗ (∃ r, prngReg c r)) := by
  obtain ⟨n, hn⟩ := t
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = outAt V c t := by dsimp only [dat]
theorem before0 (c : Dev nD) (t : Fin cfg1.N) (d) : (dat V c).before 0 t d = iblk V c 0 t :=
  before_in0_of V (dat V c) (A_eq V c 0) (after0 V c) t d
theorem before1 (c : Dev nD) (t : Fin cfg1.N) (d) : (dat V c).before 1 t d = iblk V c 1 t :=
  before_in1_of V (dat V c) (A_eq V c 1) (after1 V c) t d

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem idle2 : ∀ t : Fin cfg1.N, ¬ t.val % 4 = 3 → cfg1.idle 2 (grid1.coords t) = true :=
  (by decide +kernel : ∀ t : Fin grid1.N, ¬ t.val % 4 = 3 → cfg1.idle 2 (grid1.coords t) = true)
theorem live2 : ∀ t : Fin cfg1.N, t.val % 4 = 3 → cfg1.idle 2 (grid1.coords t) = false :=
  (by decide +kernel : ∀ t : Fin grid1.N, t.val % 4 = 3 → cfg1.idle 2 (grid1.coords t) = false)
theorem noFlush2 (t : Fin cfg1.N) (h3 : ¬ t.val % 4 = 3) : (cfg1.win 2).flush t = false :=
  Bool.eq_false_iff.mpr fun h => h3 ((flush1_2 t).mp h)

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; the point's number mod 4 says which run applies; the
    invariant hands the body the accumulator at what the point before left (at anything at the first point) and takes it
    back at this point's contents; the output block is handed back untouched except at `j = 3`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [scrAt_eq V c t]
  have hN : t.val < 256 := lt_of_lt_of_eq t.isLt (show cfg1.N = 256 from N_1)
  by_cases h0 : t.val % 4 = 0
  · have h3 : ¬ t.val % 4 = 3 := by omega
    rw [Dat.leavesExact_idle (dat V c) 2 t (idle2 t h3) (noFlush2 t h3)]
    unfold stepScr; rw [dif_pos h0]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c t hz]
      iintro ⟨⟨⟨HS, Hrest⟩, Hg⟩, Ho, ⟨%d0, H0⟩, ⟨%d1, H1⟩, ⟨%d2, H2⟩⟩
      iapply ((rF V c t h0).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverFirst c _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h3 : t.val % 4 = 3
    · rw [show (dat V c).leavesExact 2 t = owns (c : Thread nD τ) (ms2 t) fullShare ((dat V c).after 2 t) from by
        unfold Dat.leavesExact; rw [live2 t h3], after2]
      unfold stepScr outAt; rw [dif_neg h0, dif_pos h3, dif_pos h3]
      rw [PhiS_castSucc V c t, PhiS_pos V c t hz]
      iintro ⟨⟨⟨HS, Hrest⟩, Hg⟩, Ho, ⟨%d0, H0⟩, ⟨%d1, H1⟩, ⟨%d2, H2⟩⟩
      iapply ((rL V c t h3 (prevScr V c t)).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverLast c _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (ocoverLast c _ _ _ _ _ _ _ _ _ _ _ _ _ _ _)
    · rw [Dat.leavesExact_idle (dat V c) 2 t (idle2 t h3) (noFlush2 t h3)]
      unfold stepScr; rw [dif_neg h0, dif_neg h3]
      rw [PhiS_castSucc V c t, PhiS_pos V c t hz]
      iintro ⟨⟨⟨HS, Hrest⟩, Hg⟩, Ho, ⟨%d0, H0⟩, ⟨%d1, H1⟩, ⟨%d2, H2⟩⟩
      iapply ((rM V c t h0 h3 (prevScr V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverMiddle c _ _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulator's named contents are
    forgotten. -/
theorem PhiS_out (c : Dev nD) (n : ℕ) (h : n ≤ cfg1.N) (hz : n ≠ 0) : PhiS V c n h ⊢ Pipeline.ΦA spec1 c := by
  cases n with
  | zero => exact absurd rfl hz
  | succ n =>
    rw [PhiS_succ, PhiA_eq]
    iintro ⟨⟨HS, Hrest⟩, Hg⟩
    isplitl [HS Hrest]
    · isplitl [HS]
      · iexists _; iexact HS
      iexact Hrest
    iexact Hg

/-- The same after the last point. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact PhiS_out V c _ _ (by rw [Fin.val_last]; have : cfg1.N = 256 := N_1; omega)

end Region

end Cert.KernelIdeal.R1

end
-- ==== Proof.KI.Assembly.lean ====
/-
  The whole program as a run: pallas_call 0, the reshape of its result, pallas_call 1, then the host operations that
  reduce the two nearest-neighbour distance arrays and the regulariser to the scalar result. The buffers' contents
  between the four items are named (`W0` at launch … `W4` at the end): a pallas_call changes only its output array,
  to what its write-backs leave (`Dat.arrAt`); a host stretch is the fold of its operations. Every weakly fair
  execution ends with every unscoped buffer at `W4`, in particular the arguments as launched and the result at
  `W4`'s value.
-/
import proofs.«171192_j43654047597211_1_alg».proof.Proof.KI.Region0
import proofs.«171192_j43654047597211_1_alg».proof.Proof.KI.Region1
import proofs.«171192_j43654047597211_1_alg».proof.Proof.Gen.KernelIdeal.Regions

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After pallas_call 0: its arrays at what the pipeline leaves, every other buffer as entered. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the reshape of pallas_call 0's result. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After pallas_call 1. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- At the end: after the remaining host operations. -/
abbrev W4 : Dev nD → Valuation τ sig (Elt F) := fun c => StableHlo.after hostOps2 (W3 m ρ c)

/-! ## No item writes an argument -/

theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := (W3_arr m ρ c 1).trans (((R1.dat (V2 m ρ) c).arrAt_in 1 rfl _).trans (R1.A_eq (V2 m ρ) c 1))
    _ = W1 m ρ c (Proc.devRef .tc main_arg0) := W2_of m ρ c main_arg0 (by decide)
    _ = W0 m ρ c (Proc.devRef .tc main_arg0) := (W1_arr m ρ c 0).trans (((R0.dat (V0 m ρ) c).arrAt_in 0 rfl _).trans (R0.A_eq (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := (W3_arr m ρ c 0).trans (((R1.dat (V2 m ρ) c).arrAt_in 0 rfl _).trans (R1.A_eq (V2 m ρ) c 0))
    _ = W1 m ρ c (Proc.devRef .tc main_arg1) := W2_of m ρ c main_arg1 (by decide)
    _ = W0 m ρ c (Proc.devRef .tc main_arg1) := (W1_arr m ρ c 1).trans (((R0.dat (V0 m ρ) c).arrAt_in 1 rfl _).trans (R0.A_eq (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents — a literal match on the pipeline's number. -/
def pdats : (p : Fin 2) → (c : Dev nD) → Dat τ (Elt F) Unit ℕ (UR sig nD τ) ℕ (Pipeline.pin (pcfgs (F := F)) adm p) c
  | ⟨0, _⟩ => fun c => R0.dat (V0 m ρ) c
  | ⟨1, _⟩ => fun c => R1.dat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- pallas_call 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from R0.hout (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1 over the thread state: entered from every unscoped buffer at `W2`, left at `W3`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from R1.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, with the
    result buffer at `W4`'s value and each argument as launched. -/
theorem run_main : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Asm

end
-- ==== Proof.KI.Pieces0.lean ====
/-
  What the three runs of pallas_call 0's body leave, read back as values: every store of the body goes through the whole
  of its buffer and every load reads a whole buffer, so the accumulator after a point is the stored payload itself —
  at `j = 0` the tile's row minima, later the minimum of what was there with the tile's row minima — and the output
  block at `j = 3` is the accumulator just stored, re-laid as a [1, 1024, 1] block.
-/
import proofs.«171192_j43654047597211_1_alg».proof.Proof.KI.Region0
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by funext a; fin_cases a <;> rfl
theorem zero3 : (![0, 0, 0] : Fin 3 → Nat) = fun _ => 0 := by funext a; fin_cases a <;> rfl

section Region
variable (V : (c : Dev nD) → (b : Ref sig .tc) → Buf (Elt F) ((c : Thread nD τ).loc b))

/-- At `j = 0` the accumulator is overwritten with the tile's row minima. -/
theorem stepScr_first (c : Dev nD) (t : Fin cfg0.N) (h0 : t.val % 4 = 0) (xs : Vec F S1024x1 .f32) :
    stepScr V c t xs = k0_pay2 (iblk V c 0 t) (iblk V c 1 t) := by
  unfold stepScr; rw [dif_pos h0]
  rw [View.read_writes_eq_canon _ _ _ (scoverFirst c _ _ _ _ _ _ _ _ _ _ _ _ _ _)]
  unfold runFirst; dsimp only
  rw [View.canon_unit_zero (S := S1024x1) zero2]
  simp only [View.readAt_eq_ld, Memref.IsWhole.read_unread, View.ld_unit_zero (S := S1x1024x3) zero3]

/-- A whole buffer, read whole, gives back the contents it is held at. -/
theorem readWhole2 (M : Memref sig .tc .vmem S1024x1 .f32) (h : M.IsWhole) (xs : Vec F S1024x1 .f32) :
    View.readAt (Elt F) M.view (Rect.unit (s := S1024x1) ![0, 0] S1024x1.size inb_S1024x1_S1024x1_0_0).toLoadRect (h.unread xs) = xs := by
  simp only [View.readAt_eq_ld, Memref.IsWhole.read_unread, View.ld_unit_zero (S := S1024x1) zero2]
theorem readWhole3 (M : Memref sig .tc .vmem S1x1024x3 .f32) (h : M.IsWhole) (x : Vec F S1x1024x3 .f32) :
    View.readAt (Elt F) M.view (Rect.unit (s := S1x1024x3) ![0, 0, 0] S1x1024x3.size inb_S1x1024x3_S1x1024x3_0_0_0).toLoadRect (h.unread x) = x := by
  simp only [View.readAt_eq_ld, Memref.IsWhole.read_unread, View.ld_unit_zero (S := S1x1024x3) zero3]

/-- At a later `j` it is replaced by its minimum with the tile's row minima. -/
theorem stepScr_later (c : Dev nD) (t : Fin cfg0.N) (h0 : ¬ t.val % 4 = 0) (xs : Vec F S1024x1 .f32) :
    stepScr V c t xs = k0_pay3 (iblk V c 0 t) (iblk V c 1 t) xs := by
  unfold stepScr; rw [dif_neg h0]
  by_cases h3 : t.val % 4 = 3
  · rw [dif_pos h3, View.read_writes_eq_canon _ _ _ (scoverLast c _ _ _ _ _ _ _ _ _ _ _ _ _ _ _)]
    unfold runLast; dsimp only; sl_unfold_run_names
    rw [View.canon_unit_zero (S := S1024x1) zero2, readWhole2, readWhole3, readWhole3]
  · rw [dif_neg h3, View.read_writes_eq_canon _ _ _ (scoverMiddle c _ _ _ _ _ _ _ _ _ _ _ _ _ _ _)]
    unfold runMiddle; dsimp only
    rw [View.canon_unit_zero (S := S1024x1) zero2]
    exact congr (congr (congrArg k0_pay3 (readWhole3 _ _ _)) (readWhole3 _ _ _)) (readWhole2 scM (Memref.isWhole_whole _) xs)

set_option maxHeartbeats 1000000 in
/-- At `j = 3` the output block is the accumulator just stored, re-laid. -/
theorem outAt_last (c : Dev nD) (t : Fin cfg0.N) (h3 : t.val % 4 = 3) :
    outAt V c t = k0_pay4 (stepScr V c t (prevScr V c t)) := by
  have h0 : ¬ t.val % 4 = 0 := by omega
  refine Eq.trans ?_ (congrArg k0_pay4 (stepScr_later V c t h0 (prevScr V c t)).symm)
  unfold outAt; rw [dif_pos h3]
  rw [View.read_writes_eq_canon _ _ _ (ocoverLast c _ _ _ _ _ _ _ _ _ _ _ _ _ _ _)]
  unfold runLast; dsimp only
  rw [View.canon_unit_zero (S := S1x1024x1) zero3]
  refine congrArg k0_pay4 ?_
  sl_unfold_run_names
  rw [View.readCov_unit_zero (S := S1024x1) _ zero2, readWhole2, readWhole3, readWhole3]

end Region

end Cert.KernelIdeal.R0

end
-- ==== Proof.Spec.lean ====
/-
  The chamfer nearest-neighbour distance, as a function of the two point clouds, on the extended reals.

  A cloud is an array of 16 batches of 4096 points in three coordinates. For points `n` of `x` and `m` of `y` in
  batch `b` the distance is read through the Gram form
      dist = sqrt (max ((|x_n|^2 + |y_m|^2) - 2 * <x_n, y_m>) 0),
  and `nearest x y b n` is its infimum over all 4096 points `m` of `y`. The Gram form is symmetric in the two
  points (addition and multiplication of extended reals commute), so the distance from `y_m` to `x_n` is the
  same number: the infimum over the FIRST point of `dist x y` is `nearest y x`.
-/
import Idealize.ShloMosaic.PureOps.Ideal
import Idealize.ShloMosaic.Lib.ValueIdx

noncomputable section

namespace Cert.Spec

open Idealize.ShloMosaic Idealize.ShloMosaic.ValueIdx
open scoped BigOperators

/-- The shape of a cloud: 16 batches, 4096 points, 3 coordinates. -/
abbrev SP : Shape := ⟨3, ![16, 4096, 3]⟩
/-- A cloud at the ideal instance: an extended real per coordinate. -/
abbrev Pts : Type := SP.Idx → EReal

/-- The squared norm of point `n` of batch `b`. -/
def sqn (x : Pts) (b : Fin 16) (n : Fin 4096) : EReal := ∑ k : Fin 3, x (ix3 b n k) * x (ix3 b n k)

/-- The inner product of point `n` of `x` with point `m` of `y`, in batch `b`. -/
def dot (x y : Pts) (b : Fin 16) (n m : Fin 4096) : EReal := ∑ k : Fin 3, x (ix3 b n k) * y (ix3 b m k)

/-- The float word of 2.0, as an extended real. -/
def two : EReal := Ideal.ofBits .f32 0x40000000#32
/-- The float word of 0.0, as an extended real. -/
def zero : EReal := Ideal.ofBits .f32 0x00000000#32

/-- The distance from point `n` of `x` to point `m` of `y` in batch `b`, through the Gram form. -/
def dist (x y : Pts) (b : Fin 16) (n m : Fin 4096) : EReal :=
  Ideal.sqrt (max ((sqn x b n + sqn y b m) - two * dot x y b n m) zero)

/-- The distance from point `n` of `x` to the nearest point of `y`, in batch `b`. -/
def nearest (x y : Pts) (b : Fin 16) (n : Fin 4096) : EReal := Finset.univ.inf fun m : Fin 4096 => dist x y b n m

theorem dot_comm (x y : Pts) (b : Fin 16) (n m : Fin 4096) : dot x y b n m = dot y x b m n :=
  Finset.sum_congr rfl fun _ _ => mul_comm _ _

/-- The Gram form does not care which of the two points comes first. -/
theorem dist_comm (x y : Pts) (b : Fin 16) (n m : Fin 4096) : dist x y b n m = dist y x b m n := by
  unfold dist; rw [dot_comm x y, add_comm (sqn x b n)]

/-- Hence the infimum of `dist x y` over its FIRST point is the nearest-neighbour distance the other way round. -/
theorem inf_first (x y : Pts) (b : Fin 16) (m : Fin 4096) :
    (Finset.univ.inf fun n : Fin 4096 => dist x y b n m) = nearest y x b m :=
  Finset.inf_congr rfl fun n _ => dist_comm x y b n m

end Cert.Spec

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.TileMin.lean ====
/-
  The arithmetic of one tile, read at an index, over the extended reals.

  From a block `a` of 1024 points of one cloud and a block `bb` of 1024 points of the other the tile forms, for every
  pair (r, c), the Gram form of the distance
      sqrt (max ((|a_r|^2 + |bb_c|^2) - 2 * <a_r, bb_c>) 0)
  (squared norms by a sum over the three coordinates, the inner products by one block product against the transposed
  second block), and takes the minimum over c. Here each step is read at an index: the sum over the coordinate axis is
  a sum over `Fin 3`, the block product at (r, c) is the inner product of row r with row c, the minimum over the column
  axis started from +inf is the infimum over `Fin 1024`; the layout steps (a unit axis dropped or added, a column
  broadcast along rows, a transposed column broadcast along columns) read their operand at the matching coordinates.
-/
import proofs.«171192_j43654047597211_1_alg».proof.Proof.Spec
import proofs.«171192_j43654047597211_1_alg».proof.Proof.Gen.KernelIdeal.Skeleton
import proofs.«171192_j43654047597211_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.TileMin

open Idealize.ShloMosaic Idealize.ShloMosaic.ValueIdx
open Cert.KernelIdeal Cert.KernelIdeal.Gen
open scoped BigOperators

/-- The lane sum of squares of row r. -/
theorem sqsum_apply (x : FVec Ideal S1024x3 .f32) (hφ : FKind.Formats .f32)
    (hacc : (0x00000000#32 : BitVec 32) = FKind.add.neutral .f32 hφ) (r : Fin 1024) :
    multiReduction (F := Ideal) .add [1] S1024 (mulf x x) 0x00000000#32 reduces_S1024x3_S1024 hφ hacc (ix1 r)
      = ∑ k : Fin 3, x (ix2 r k) * x (ix2 r k) := by
  refine (Ideal.multiReduction_add_single (mulf x x) 0x00000000#32 reduces_S1024x3_S1024 hφ hacc (ix1 r)).trans ?_
  refine Finset.sum_congr rfl fun k _ => ?_
  have e : reduces_S1024x3_S1024.lift (ix1 r) k = ix2 r k :=
    funext fun a => Fin.ext (by match a with | ⟨0, _⟩ => rfl | ⟨1, _⟩ => rfl)
  rw [e]; rfl

/-- The +inf word is the top element. -/
theorem ofBits_inf_f32 : Ideal.ofBits .f32 0x7F800000#32 = ⊤ := by simp [Ideal.ofBits, Ideal.ieee]

/-- The minimum over the columns of row r. -/
theorem colmin_apply (y : FVec Ideal S1024x1024 .f32) (hφ : FKind.Formats .f32)
    (hacc : (0x7F800000#32 : BitVec 32) = FKind.minimumf.neutral .f32 hφ) (r : Fin 1024) :
    multiReduction (F := Ideal) .minimumf [1] S1024 y 0x7F800000#32 reduces_S1024x1024_S1024 hφ hacc (ix1 r)
      = Finset.univ.inf fun c : Fin 1024 => y (ix2 r c) := by
  refine (multiReduction_minimumf_eq_fold y 0x7F800000#32 reduces_S1024x1024_S1024 hφ hacc (ix1 r)).trans ?_
  refine (reduces_S1024x1024_S1024.fold_filter_drop_single _ _ y (ix1 r)).trans ?_
  have e : ∀ c : Fin 1024, reduces_S1024x1024_S1024.lift (ix1 r) c = ix2 r c := fun c =>
    funext fun a => Fin.ext (by match a with | ⟨0, _⟩ => rfl | ⟨1, _⟩ => rfl)
  show (Finset.univ : Finset (Fin 1024)).fold min (Ideal.ofBits .f32 0x7F800000#32) (fun c => y (reduces_S1024x1024_S1024.lift (ix1 r) c)) = _
  rw [ofBits_inf_f32]
  have e' : (fun c : Fin 1024 => y (reduces_S1024x1024_S1024.lift (ix1 r) c)) = fun c => y (ix2 r c) :=
    funext fun c => congrArg y (e c)
  exact (congrArg (fun f : Fin 1024 → EReal => Finset.fold min ⊤ f Finset.univ) e').trans rfl

/-- The dimension numbers of the block product: rows of the first block against rows of the second (transposed). -/
abbrev D : DotDims S1024x3 S3x1024 S1024x1024 := dot_S1024x3_S3x1024_S1024x1024_1_0_0_1_n_n

/-- The operand indices of the block product at output index j and contraction position q: the first operand is read
    at (j 0, q), the second at (q, j 1). -/
theorem lhs0 (j : S1024x1024.Idx) (q : D.contr.Idx) : (D.lhsIdx j q 0).val = (j 0).val := by
  unfold DotDims.lhsIdx
  rw [dif_neg (show ¬(0 : Fin S1024x3.rank) ∈ D.lhsBatch by decide), dif_pos (show (0 : Fin S1024x3.rank) ∈ D.lhsNonContracting by decide)]
  rfl
theorem lhs1 (j : S1024x1024.Idx) (q : D.contr.Idx) : (D.lhsIdx j q 1).val = (q ⟨0, by decide⟩).val :=
  D.lhsIdx_val_of_single rfl j q
theorem rhs0 (j : S1024x1024.Idx) (q : D.contr.Idx) : (D.rhsIdx j q 0).val = (q ⟨0, by decide⟩).val :=
  D.rhsIdx_val_of_single rfl j q
theorem rhs1 (j : S1024x1024.Idx) (q : D.contr.Idx) : (D.rhsIdx j q 1).val = (j 1).val := by
  unfold DotDims.rhsIdx
  rw [dif_neg (show ¬(1 : Fin S3x1024.rank) ∈ D.rhsBatch by decide), dif_pos (show (1 : Fin S3x1024.rank) ∈ D.rhsNonContracting by decide)]
  rfl

/-- The block product at (r, c) is the inner product of row r of the first block with row c of the second. -/
theorem cross_apply (x y : FVec Ideal S1024x3 .f32) (r c : Fin 1024) :
    matmul (F := Ideal) D none (truncf .bf16 x bitsLt_bf16_f32)
      (transpose S3x1024 [1, 0] (truncf .bf16 y bitsLt_bf16_f32) transposes_S1024x3_p1_0_S3x1024)
      (constant (F := Ideal) S1024x1024 .f32 0x00000000#32) (ix2 r c)
      = ∑ k : Fin 3, x (ix2 r k) * y (ix2 c k) := by
  refine (Ideal.matmul_constant_zero_apply D none _ _ (ix2 r c)).trans ?_
  rw [← Equiv.sum_comp (contrEquiv1 D 3 rfl rfl).symm]
  refine Finset.sum_congr rfl fun k _ => ?_
  have hk := contrEquiv1_symm_val D 3 rfl rfl k
  have el : D.lhsIdx (ix2 r c) ((contrEquiv1 D 3 rfl rfl).symm k) = ix2 r k := funext fun a => Fin.ext (by
    match a with
    | ⟨0, _⟩ => exact lhs0 _ _
    | ⟨1, _⟩ => exact (lhs1 _ _).trans hk)
  have er : D.rhsIdx (ix2 r c) ((contrEquiv1 D 3 rfl rfl).symm k) = ix2 k c := funext fun a => Fin.ext (by
    match a with
    | ⟨0, _⟩ => exact (rhs0 _ _).trans hk
    | ⟨1, _⟩ => exact rhs1 _ _)
  rw [el, er, transpose_ix2_apply]
  rfl

/-- A square root of a vector read at an index is the square root of the element. -/
theorem sqrt_at {s : Shape} (v : FVec Ideal s .f32) (i : s.Idx) : sqrt v i = Ideal.sqrt (v i) := rfl

/-- Distance between row r of block a and row c of block bb, in the Gram form. -/
def tdist (a bb : Vec Ideal S1x1024x3 .f32) (r c : Fin 1024) : EReal :=
  Ideal.sqrt (max (((∑ k : Fin 3, a (ix3 0 r k) * a (ix3 0 r k)) + (∑ k : Fin 3, bb (ix3 0 c k) * bb (ix3 0 c k)))
    - Cert.Spec.two * (∑ k : Fin 3, a (ix3 0 r k) * bb (ix3 0 c k))) Cert.Spec.zero)

/-- The squared norm of row r of a block, computed on the block with its unit axis dropped. -/
theorem sqnorm_apply (a : Vec Ideal S1x1024x3 .f32) (hφ : FKind.Formats .f32)
    (hacc : (0x00000000#32 : BitVec 32) = FKind.add.neutral .f32 hφ) (r : Fin 1024) :
    multiReduction (F := Ideal) .add [1] S1024
        (mulf (shapeCast S1024x3 a shapeCasts_S1x1024x3_S1024x3) (shapeCast S1024x3 a shapeCasts_S1x1024x3_S1024x3))
        0x00000000#32 reduces_S1024x3_S1024 hφ hacc (ix1 r)
      = ∑ k : Fin 3, a (ix3 0 r k) * a (ix3 0 r k) := by
  refine (sqsum_apply _ hφ hacc r).trans ?_
  refine Finset.sum_congr rfl fun k _ => ?_
  exact congrArg₂ (· * ·) (shapeCast_1ab_ab_apply a _ r k) (shapeCast_1ab_ab_apply a _ r k)

/-- The tile's value at row r: the infimum over the rows c of the second block of the distance from a_r to bb_c. -/
theorem pay1_apply (a bb : Vec Ideal S1x1024x3 .f32) (r : Fin 1024) :
    k0_pay1 (F := Ideal) a bb (ix2 r (0 : Fin 1)) = Finset.univ.inf fun c : Fin 1024 => tdist a bb r c := by
  unfold k0_pay1
  refine (PhysLoss.shapeCast_a_a1_apply _ shapeCasts_S1024_S1024x1 r 0).trans ?_
  refine (colmin_apply _ _ _ r).trans ?_
  refine Finset.inf_congr rfl fun c _ => ?_
  unfold tdist
  refine (sqrt_at _ _).trans (congrArg Ideal.sqrt ?_)
  refine (maximumf_apply _ _ _).trans (congrArg₂ max ?_ rfl)
  refine (subf_apply _ _ _).trans (congrArg₂ (· - ·) ?_ ?_)
  · refine (addf_apply _ _ _).trans (congrArg₂ (· + ·) ?_ ?_)
    · refine (PhysLoss.broadcastTo_a1_ab_apply _ broadcasts_S1024x1_S1024x1024 r c).trans ?_
      refine (PhysLoss.shapeCast_a_a1_apply _ shapeCasts_S1024_S1024x1 r 0).trans ?_
      exact sqnorm_apply a _ _ r
    · refine (broadcastTo_1b_ab_apply _ broadcasts_S1x1024_S1024x1024 r c).trans ?_
      refine (transpose_ix2_apply _ transposes_S1024x1_p1_0_S1x1024 (0 : Fin 1) c).trans ?_
      refine (PhysLoss.shapeCast_a_a1_apply _ shapeCasts_S1024_S1024x1 c 0).trans ?_
      exact sqnorm_apply bb _ _ c
  · refine (mulf_apply _ _ _).trans (congrArg₂ (· * ·) rfl ?_)
    refine (cross_apply _ _ r c).trans ?_
    refine Finset.sum_congr rfl fun k _ => ?_
    exact congrArg₂ (· * ·) (shapeCast_1ab_ab_apply a _ r k) (shapeCast_1ab_ab_apply bb _ c k)

/-- The identity reshape reads the same element. -/
theorem pay2_apply (a bb : Vec Ideal S1x1024x3 .f32) (r : Fin 1024) :
    k0_pay2 (F := Ideal) a bb (ix2 r (0 : Fin 1)) = k0_pay1 (F := Ideal) a bb (ix2 r 0) := by
  unfold k0_pay2
  exact congrFun (shapeCast_self _ shapeCasts_S1024x1_S1024x1) _

/-- The running minimum at row r: the smaller of the carried value and the tile's value. -/
theorem pay3_apply (a bb : Vec Ideal S1x1024x3 .f32) (s : Vec Ideal S1024x1 .f32) (r : Fin 1024) :
    k0_pay3 (F := Ideal) a bb s (ix2 r (0 : Fin 1)) = min (s (ix2 r 0)) (k0_pay1 (F := Ideal) a bb (ix2 r 0)) := by
  unfold k0_pay3
  exact (congrFun (shapeCast_self _ shapeCasts_S1024x1_S1024x1) _).trans (minimumf_apply _ _ _)

/-- A leading unit axis added: the element at (0, r, 0) is the operand's at (r, 0). -/
theorem pay4_apply (s : Vec Ideal S1024x1 .f32) (r : Fin 1024) :
    k0_pay4 (F := Ideal) s (ix3 (0 : Fin 1) r (0 : Fin 1)) = s (ix2 r 0) := by
  unfold k0_pay4
  exact shapeCast_ab_1ab_apply s shapeCasts_S1024x1_S1x1024x1 (0 : Fin 1) r (0 : Fin 1)

/-- The second call's payloads are the same terms. -/
theorem k1_pay1_eq : @k1_pay1 = @k0_pay1 := rfl
theorem k1_pay2_eq : @k1_pay2 = @k0_pay2 := rfl
theorem k1_pay3_eq : @k1_pay3 = @k0_pay3 := rfl
theorem k1_pay4_eq : @k1_pay4 = @k0_pay4 := rfl

theorem k1_pay1_apply (a bb : Vec Ideal S1x1024x3 .f32) (r : Fin 1024) :
    k1_pay1 (F := Ideal) a bb (ix2 r (0 : Fin 1)) = Finset.univ.inf fun c : Fin 1024 => tdist a bb r c := by
  rw [k1_pay1_eq]; exact pay1_apply a bb r

theorem k1_pay2_apply (a bb : Vec Ideal S1x1024x3 .f32) (r : Fin 1024) :
    k1_pay2 (F := Ideal) a bb (ix2 r (0 : Fin 1)) = k1_pay1 (F := Ideal) a bb (ix2 r 0) := by
  rw [k1_pay2_eq, k1_pay1_eq]; exact pay2_apply a bb r

theorem k1_pay3_apply (a bb : Vec Ideal S1x1024x3 .f32) (s : Vec Ideal S1024x1 .f32) (r : Fin 1024) :
    k1_pay3 (F := Ideal) a bb s (ix2 r (0 : Fin 1)) = min (s (ix2 r 0)) (k1_pay1 (F := Ideal) a bb (ix2 r 0)) := by
  rw [k1_pay3_eq, k1_pay1_eq]; exact pay3_apply a bb s r

theorem k1_pay4_apply (s : Vec Ideal S1024x1 .f32) (r : Fin 1024) :
    k1_pay4 (F := Ideal) s (ix3 (0 : Fin 1) r (0 : Fin 1)) = s (ix2 r 0) := by
  rw [k1_pay4_eq]; exact pay4_apply s r

end Cert.TileMin

end
-- ==== Proof.TileLaw.lean ====
/-
  The infimum of a function on 4096 points is the minimum of its infima over the four consecutive tiles of 1024
  points: every point m lies in tile m / 1024 at position m % 1024, and every tile entry is one of the points.
-/
import Mathlib.Data.EReal.Basic
import Mathlib.Data.Finset.Lattice.Fold
import Mathlib.Data.Fintype.Basic

namespace Cert.TileLaw

/-- The infimum of `f` over tile `j`: entries `j * 1024 .. j * 1024 + 1023`. -/
noncomputable def tile (f : Fin 4096 → EReal) (j : Fin 4) : EReal :=
  Finset.univ.inf fun c : Fin 1024 => f ⟨j.val * 1024 + c.val, by have := j.isLt; have := c.isLt; omega⟩

/-- A tile's infimum is below each of its entries. -/
theorem tile_le (f : Fin 4096 → EReal) (j : Fin 4) (c : Fin 1024) :
    tile f j ≤ f ⟨j.val * 1024 + c.val, by have := j.isLt; have := c.isLt; omega⟩ :=
  Finset.inf_le (f := fun c : Fin 1024 => f ⟨j.val * 1024 + c.val, by have := j.isLt; have := c.isLt; omega⟩)
    (Finset.mem_univ c)

/-- The minimum of the four tile infima is below each of them. -/
theorem min_tiles_le (f : Fin 4096 → EReal) (j : Fin 4) :
    min (min (min (tile f 0) (tile f 1)) (tile f 2)) (tile f 3) ≤ tile f j := by
  match j with
  | ⟨0, _⟩ => exact (min_le_left _ _).trans ((min_le_left _ _).trans (min_le_left _ _))
  | ⟨1, _⟩ => exact (min_le_left _ _).trans ((min_le_left _ _).trans (min_le_right _ _))
  | ⟨2, _⟩ => exact (min_le_left _ _).trans (min_le_right _ _)
  | ⟨3, _⟩ => exact min_le_right _ _

/-- The minimum of the four tile infima is the infimum over all 4096 points. -/
theorem inf_four_tiles (f : Fin 4096 → EReal) :
    min (min (min (tile f 0) (tile f 1)) (tile f 2)) (tile f 3) = Finset.univ.inf f := by
  apply le_antisymm
  · refine Finset.le_inf fun m _ => ?_
    have hm := m.isLt
    have h4 : m.val / 1024 < 4 := by omega
    have hc : m.val % 1024 < 1024 := by omega
    have h := tile_le f ⟨m.val / 1024, h4⟩ ⟨m.val % 1024, hc⟩
    have e : (⟨(⟨m.val / 1024, h4⟩ : Fin 4).val * 1024 + (⟨m.val % 1024, hc⟩ : Fin 1024).val,
        by have := hm; show m.val / 1024 * 1024 + m.val % 1024 < 4096; omega⟩ : Fin 4096) = m :=
      Fin.ext (by show m.val / 1024 * 1024 + m.val % 1024 = m.val; omega)
    exact (min_tiles_le f ⟨m.val / 1024, h4⟩).trans (le_of_le_of_eq h (congrArg f e))
  · refine le_min (le_min (le_min ?_ ?_) ?_) ?_ <;>
      exact Finset.le_inf fun c _ => Finset.inf_le (Finset.mem_univ _)

end Cert.TileLaw
-- ==== Proof.KI.BlockRead.lean ====
/-
  Where the blocks of the two tiled calls sit in their arrays.

  Both calls walk the grid [16, 4, 4] row-major: point t = (b * 4 + i) * 4 + j is batch b, tile i of the first
  cloud's 4096 points and tile j of the second's. At that point window 0's block [1, 1024, 3] is block (b, i, 0) of its
  array, window 1's is block (b, j, 0) of its array, and the output window's block [1, 1024, 1] is block (b, i, 0) of
  the output array. A block's element sits, on each axis, at block index times block size plus its own coordinate; so
  element (0, r, k) of window 0's block is the array's element (b, i * 1024 + r, k), and likewise for the others. The
  output array's index (b, n, 0) lies in the block of the point (b * 4 + n / 1024) * 4 + 3, a point that writes back.
  Stated for any contents of the arrays.
-/
import proofs.«171192_j43654047597211_1_alg».proof.Proof.Gen.KernelIdeal.Points
import Idealize.ShloMosaic.Lib.Pipeline.Value
import Idealize.ShloMosaic.Lib.ValueIdx

noncomputable section

namespace Cert.KernelIdeal.BlockRead

open Cert.KernelIdeal Cert.KernelIdeal.Gen Idealize.ShloMosaic Idealize.ShloMosaic.TcCoe Idealize.SL.Sem
open Idealize.ShloMosaic.ValueIdx

variable {F : FTy → Type} [FloatOps F]

/-! ## pallas_call 0: the grid [16, 4, 4] walked row-major, point t = (b * 4 + i) * 4 + j -/

/-- The grid has 256 points. -/
theorem N0 : cfg0.N = 256 := by decide

/-- The printed index maps, decided once over the grid: window 0 sits at block (b, i, 0), window 1 at (b, j, 0), the
    output window at (b, i, 0), where b = t / 16, i = t / 4 % 4, j = t % 4. -/
theorem idx_facts0 : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val / 4 % 4 ∧ win0_2.index t (2 : Fin 3) = 0 :=
  (by decide +kernel : ∀ t : Fin grid0.N, _)

/-- Every point is (b * 4 + i) * 4 + j for one batch b and two tile numbers i, j. -/
theorem decode0 (t : Fin cfg0.N) : ∃ b : Fin 16, ∃ i j : Fin 4, t.val = (b.val * 4 + i.val) * 4 + j.val := by
  have ht := t.isLt
  have hN : cfg0.N = 256 := N0
  exact ⟨⟨t.val / 16, by omega⟩, ⟨t.val / 4 % 4, by omega⟩, ⟨t.val % 4, by omega⟩, by show t.val = (t.val / 16 * 4 + t.val / 4 % 4) * 4 + t.val % 4; omega⟩

/-- Element (0, r, k) of window 0's block at point t sits in the array at (b, i * 1024 + r, k). -/
theorem emb0_0 (t : Fin cfg0.N) (b : Fin 16) (i j : Fin 4) (r : Fin 1024) (k : Fin 3)
    (ht : t.val = (b.val * 4 + i.val) * 4 + j.val) :
    ((cfg0.win 0).blk t).view.emb (ix3 (0 : Fin 1) r k)
      = ix3 b (⟨i.val * 1024 + r.val, by have := i.isLt; have := r.isLt; omega⟩ : Fin 4096) k := by
  obtain ⟨e0, e1, e2, -⟩ := idx_facts0 t
  have hb := b.isLt; have hi := i.isLt; have hj := j.isLt
  funext a; apply Fin.ext
  match a with
  | ⟨0, _⟩ => show win0_0.index t (0 : Fin 3) * 1 + 1 * 0 = b.val; omega
  | ⟨1, _⟩ => show win0_0.index t (1 : Fin 3) * 1024 + 1 * r.val = i.val * 1024 + r.val; omega
  | ⟨2, _⟩ => show win0_0.index t (2 : Fin 3) * 3 + 1 * k.val = k.val; omega

/-- Element (0, r, k) of window 1's block at point t sits in the array at (b, j * 1024 + r, k). -/
theorem emb0_1 (t : Fin cfg0.N) (b : Fin 16) (i j : Fin 4) (r : Fin 1024) (k : Fin 3)
    (ht : t.val = (b.val * 4 + i.val) * 4 + j.val) :
    ((cfg0.win 1).blk t).view.emb (ix3 (0 : Fin 1) r k)
      = ix3 b (⟨j.val * 1024 + r.val, by have := j.isLt; have := r.isLt; omega⟩ : Fin 4096) k := by
  obtain ⟨-, -, -, e0, e1, e2, -⟩ := idx_facts0 t
  have hb := b.isLt; have hi := i.isLt; have hj := j.isLt
  funext a; apply Fin.ext
  match a with
  | ⟨0, _⟩ => show win0_1.index t (0 : Fin 3) * 1 + 1 * 0 = b.val; omega
  | ⟨1, _⟩ => show win0_1.index t (1 : Fin 3) * 1024 + 1 * r.val = j.val * 1024 + r.val; omega
  | ⟨2, _⟩ => show win0_1.index t (2 : Fin 3) * 3 + 1 * k.val = k.val; omega

/-- Element (0, r, 0) of the output window's block at point t sits in the array at (b, i * 1024 + r, 0). -/
theorem emb0_2 (t : Fin cfg0.N) (b : Fin 16) (i j : Fin 4) (r : Fin 1024)
    (ht : t.val = (b.val * 4 + i.val) * 4 + j.val) :
    ((cfg0.win 2).blk t).view.emb (ix3 (0 : Fin 1) r (0 : Fin 1))
      = ix3 b (⟨i.val * 1024 + r.val, by have := i.isLt; have := r.isLt; omega⟩ : Fin 4096) (0 : Fin 1) := by
  obtain ⟨-, -, -, -, -, -, e0, e1, e2⟩ := idx_facts0 t
  have hb := b.isLt; have hi := i.isLt; have hj := j.isLt
  funext a; apply Fin.ext
  match a with
  | ⟨0, _⟩ => show win0_2.index t (0 : Fin 3) * 1 + 1 * 0 = b.val; omega
  | ⟨1, _⟩ => show win0_2.index t (1 : Fin 3) * 1024 + 1 * r.val = i.val * 1024 + r.val; omega
  | ⟨2, _⟩ => show win0_2.index t (2 : Fin 3) * 1 + 1 * 0 = 0; omega

/-- Window 0's block at point t, read at (0, r, k), is the array at (b, i * 1024 + r, k). -/
theorem read0_0 (x : S16x4096x3.Idx → Elt F .f32) (t : Fin cfg0.N) (b : Fin 16) (i j : Fin 4) (r : Fin 1024) (k : Fin 3)
    (ht : t.val = (b.val * 4 + i.val) * 4 + j.val) :
    ((cfg0.win 0).blk t).view.read (Elt F) x (ix3 (0 : Fin 1) r k)
      = x (ix3 b (⟨i.val * 1024 + r.val, by have := i.isLt; have := r.isLt; omega⟩ : Fin 4096) k) := by
  show x (((cfg0.win 0).blk t).view.emb (ix3 (0 : Fin 1) r k)) = _
  rw [emb0_0 t b i j r k ht]

/-- Window 1's block at point t, read at (0, r, k), is the array at (b, j * 1024 + r, k). -/
theorem read0_1 (x : S16x4096x3.Idx → Elt F .f32) (t : Fin cfg0.N) (b : Fin 16) (i j : Fin 4) (r : Fin 1024) (k : Fin 3)
    (ht : t.val = (b.val * 4 + i.val) * 4 + j.val) :
    ((cfg0.win 1).blk t).view.read (Elt F) x (ix3 (0 : Fin 1) r k)
      = x (ix3 b (⟨j.val * 1024 + r.val, by have := j.isLt; have := r.isLt; omega⟩ : Fin 4096) k) := by
  show x (((cfg0.win 1).blk t).view.emb (ix3 (0 : Fin 1) r k)) = _
  rw [emb0_1 t b i j r k ht]

/-- The output window's block at point t, read at (0, r, 0), is the array at (b, i * 1024 + r, 0). -/
theorem read0_2 (x : S16x4096x1.Idx → Elt F .f32) (t : Fin cfg0.N) (b : Fin 16) (i j : Fin 4) (r : Fin 1024)
    (ht : t.val = (b.val * 4 + i.val) * 4 + j.val) :
    ((cfg0.win 2).blk t).view.read (Elt F) x (ix3 (0 : Fin 1) r (0 : Fin 1))
      = x (ix3 b (⟨i.val * 1024 + r.val, by have := i.isLt; have := r.isLt; omega⟩ : Fin 4096) (0 : Fin 1)) := by
  show x (((cfg0.win 2).blk t).view.emb (ix3 (0 : Fin 1) r (0 : Fin 1))) = _
  rw [emb0_2 t b i j r ht]

/-- An index of the output array is in point t's block iff each coordinate is in the block's range on its axis. -/
theorem mem_blk0_2 (t : Fin cfg0.N) (i : S16x4096x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v0).slice (win0_2.rect t)).set ↔ _
  rw [View.set_slice_whole, Rect.mem_set_unit]
  exact Iff.rfl

/-- Every index (b, n, 0) of the output array lies in the block of the point (b * 4 + n / 1024) * 4 + 3, which writes
    its block back. -/
theorem cover0_2 (i : S16x4096x1.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  have hN : cfg0.N = 256 := N0
  have hlt : ((i 0).val * 4 + (i 1).val / 1024) * 4 + 3 < cfg0.N := by rw [hN]; omega
  refine ⟨⟨((i 0).val * 4 + (i 1).val / 1024) * 4 + 3, hlt⟩, (flush0_2 _).mpr (by show (((i 0).val * 4 + (i 1).val / 1024) * 4 + 3) % 4 = 3; omega), ?_⟩
  rw [mem_blk0_2]
  obtain ⟨-, -, -, -, -, -, e0, e1, e2⟩ := idx_facts0 ⟨((i 0).val * 4 + (i 1).val / 1024) * 4 + 3, hlt⟩
  have tv : (⟨((i 0).val * 4 + (i 1).val / 1024) * 4 + 3, hlt⟩ : Fin cfg0.N).val = ((i 0).val * 4 + (i 1).val / 1024) * 4 + 3 := rfl
  rw [tv] at e0 e1
  intro a
  match a with
  | ⟨0, _⟩ =>
    show win0_2.index ⟨((i 0).val * 4 + (i 1).val / 1024) * 4 + 3, hlt⟩ (0 : Fin 3) * 1 ≤ (i 0).val
      ∧ (i 0).val < win0_2.index ⟨((i 0).val * 4 + (i 1).val / 1024) * 4 + 3, hlt⟩ (0 : Fin 3) * 1 + 1
    omega
  | ⟨1, _⟩ =>
    show win0_2.index ⟨((i 0).val * 4 + (i 1).val / 1024) * 4 + 3, hlt⟩ (1 : Fin 3) * 1024 ≤ (i 1).val
      ∧ (i 1).val < win0_2.index ⟨((i 0).val * 4 + (i 1).val / 1024) * 4 + 3, hlt⟩ (1 : Fin 3) * 1024 + 1024
    omega
  | ⟨2, _⟩ =>
    show win0_2.index ⟨((i 0).val * 4 + (i 1).val / 1024) * 4 + 3, hlt⟩ (2 : Fin 3) * 1 ≤ (i 2).val
      ∧ (i 2).val < win0_2.index ⟨((i 0).val * 4 + (i 1).val / 1024) * 4 + 3, hlt⟩ (2 : Fin 3) * 1 + 1
    omega

/-! ## pallas_call 1: the grid [16, 4, 4] walked row-major, point t = (b * 4 + i) * 4 + j -/

/-- The grid has 256 points. -/
theorem N1 : cfg1.N = 256 := by decide

/-- The printed index maps, decided once over the grid: window 0 sits at block (b, i, 0), window 1 at (b, j, 0), the
    output window at (b, i, 0), where b = t / 16, i = t / 4 % 4, j = t % 4. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val / 4 % 4 ∧ win1_2.index t (2 : Fin 3) = 0 :=
  (by decide +kernel : ∀ t : Fin grid1.N, _)

/-- Every point is (b * 4 + i) * 4 + j for one batch b and two tile numbers i, j. -/
theorem decode1 (t : Fin cfg1.N) : ∃ b : Fin 16, ∃ i j : Fin 4, t.val = (b.val * 4 + i.val) * 4 + j.val := by
  have ht := t.isLt
  have hN : cfg1.N = 256 := N1
  exact ⟨⟨t.val / 16, by omega⟩, ⟨t.val / 4 % 4, by omega⟩, ⟨t.val % 4, by omega⟩, by show t.val = (t.val / 16 * 4 + t.val / 4 % 4) * 4 + t.val % 4; omega⟩

/-- Element (0, r, k) of window 0's block at point t sits in the array at (b, i * 1024 + r, k). -/
theorem emb1_0 (t : Fin cfg1.N) (b : Fin 16) (i j : Fin 4) (r : Fin 1024) (k : Fin 3)
    (ht : t.val = (b.val * 4 + i.val) * 4 + j.val) :
    ((cfg1.win 0).blk t).view.emb (ix3 (0 : Fin 1) r k)
      = ix3 b (⟨i.val * 1024 + r.val, by have := i.isLt; have := r.isLt; omega⟩ : Fin 4096) k := by
  obtain ⟨e0, e1, e2, -⟩ := idx_facts1 t
  have hb := b.isLt; have hi := i.isLt; have hj := j.isLt
  funext a; apply Fin.ext
  match a with
  | ⟨0, _⟩ => show win1_0.index t (0 : Fin 3) * 1 + 1 * 0 = b.val; omega
  | ⟨1, _⟩ => show win1_0.index t (1 : Fin 3) * 1024 + 1 * r.val = i.val * 1024 + r.val; omega
  | ⟨2, _⟩ => show win1_0.index t (2 : Fin 3) * 3 + 1 * k.val = k.val; omega

/-- Element (0, r, k) of window 1's block at point t sits in the array at (b, j * 1024 + r, k). -/
theorem emb1_1 (t : Fin cfg1.N) (b : Fin 16) (i j : Fin 4) (r : Fin 1024) (k : Fin 3)
    (ht : t.val = (b.val * 4 + i.val) * 4 + j.val) :
    ((cfg1.win 1).blk t).view.emb (ix3 (0 : Fin 1) r k)
      = ix3 b (⟨j.val * 1024 + r.val, by have := j.isLt; have := r.isLt; omega⟩ : Fin 4096) k := by
  obtain ⟨-, -, -, e0, e1, e2, -⟩ := idx_facts1 t
  have hb := b.isLt; have hi := i.isLt; have hj := j.isLt
  funext a; apply Fin.ext
  match a with
  | ⟨0, _⟩ => show win1_1.index t (0 : Fin 3) * 1 + 1 * 0 = b.val; omega
  | ⟨1, _⟩ => show win1_1.index t (1 : Fin 3) * 1024 + 1 * r.val = j.val * 1024 + r.val; omega
  | ⟨2, _⟩ => show win1_1.index t (2 : Fin 3) * 3 + 1 * k.val = k.val; omega

/-- Element (0, r, 0) of the output window's block at point t sits in the array at (b, i * 1024 + r, 0). -/
theorem emb1_2 (t : Fin cfg1.N) (b : Fin 16) (i j : Fin 4) (r : Fin 1024)
    (ht : t.val = (b.val * 4 + i.val) * 4 + j.val) :
    ((cfg1.win 2).blk t).view.emb (ix3 (0 : Fin 1) r (0 : Fin 1))
      = ix3 b (⟨i.val * 1024 + r.val, by have := i.isLt; have := r.isLt; omega⟩ : Fin 4096) (0 : Fin 1) := by
  obtain ⟨-, -, -, -, -, -, e0, e1, e2⟩ := idx_facts1 t
  have hb := b.isLt; have hi := i.isLt; have hj := j.isLt
  funext a; apply Fin.ext
  match a with
  | ⟨0, _⟩ => show win1_2.index t (0 : Fin 3) * 1 + 1 * 0 = b.val; omega
  | ⟨1, _⟩ => show win1_2.index t (1 : Fin 3) * 1024 + 1 * r.val = i.val * 1024 + r.val; omega
  | ⟨2, _⟩ => show win1_2.index t (2 : Fin 3) * 1 + 1 * 0 = 0; omega

/-- Window 0's block at point t, read at (0, r, k), is the array at (b, i * 1024 + r, k). -/
theorem read1_0 (x : S16x4096x3.Idx → Elt F .f32) (t : Fin cfg1.N) (b : Fin 16) (i j : Fin 4) (r : Fin 1024) (k : Fin 3)
    (ht : t.val = (b.val * 4 + i.val) * 4 + j.val) :
    ((cfg1.win 0).blk t).view.read (Elt F) x (ix3 (0 : Fin 1) r k)
      = x (ix3 b (⟨i.val * 1024 + r.val, by have := i.isLt; have := r.isLt; omega⟩ : Fin 4096) k) := by
  show x (((cfg1.win 0).blk t).view.emb (ix3 (0 : Fin 1) r k)) = _
  rw [emb1_0 t b i j r k ht]

/-- Window 1's block at point t, read at (0, r, k), is the array at (b, j * 1024 + r, k). -/
theorem read1_1 (x : S16x4096x3.Idx → Elt F .f32) (t : Fin cfg1.N) (b : Fin 16) (i j : Fin 4) (r : Fin 1024) (k : Fin 3)
    (ht : t.val = (b.val * 4 + i.val) * 4 + j.val) :
    ((cfg1.win 1).blk t).view.read (Elt F) x (ix3 (0 : Fin 1) r k)
      = x (ix3 b (⟨j.val * 1024 + r.val, by have := j.isLt; have := r.isLt; omega⟩ : Fin 4096) k) := by
  show x (((cfg1.win 1).blk t).view.emb (ix3 (0 : Fin 1) r k)) = _
  rw [emb1_1 t b i j r k ht]

/-- The output window's block at point t, read at (0, r, 0), is the array at (b, i * 1024 + r, 0). -/
theorem read1_2 (x : S16x4096x1.Idx → Elt F .f32) (t : Fin cfg1.N) (b : Fin 16) (i j : Fin 4) (r : Fin 1024)
    (ht : t.val = (b.val * 4 + i.val) * 4 + j.val) :
    ((cfg1.win 2).blk t).view.read (Elt F) x (ix3 (0 : Fin 1) r (0 : Fin 1))
      = x (ix3 b (⟨i.val * 1024 + r.val, by have := i.isLt; have := r.isLt; omega⟩ : Fin 4096) (0 : Fin 1)) := by
  show x (((cfg1.win 2).blk t).view.emb (ix3 (0 : Fin 1) r (0 : Fin 1))) = _
  rw [emb1_2 t b i j r ht]

/-- An index of the output array is in point t's block iff each coordinate is in the block's range on its axis. -/
theorem mem_blk1_2 (t : Fin cfg1.N) (i : S16x4096x1.Idx) :
    i ∈ ((cfg1.win 2).blk t).view.set ↔ ∀ a : Fin 3, win1_2.index t a * S1x1024x1.size a ≤ (i a).val
      ∧ (i a).val < win1_2.index t a * S1x1024x1.size a + S1x1024x1.size a := by
  show i ∈ ((View.whole main_v2).slice (win1_2.rect t)).set ↔ _
  rw [View.set_slice_whole, Rect.mem_set_unit]
  exact Iff.rfl

/-- Every index (b, n, 0) of the output array lies in the block of the point (b * 4 + n / 1024) * 4 + 3, which writes
    its block back. -/
theorem cover1_2 (i : S16x4096x1.Idx) :
    ∃ t : Fin cfg1.N, (cfg1.win 2).flush t = true ∧ i ∈ ((cfg1.win 2).blk t).view.set := by
  have h0 : (i 0).val < 16 := (i 0).isLt
  have h1 : (i 1).val < 4096 := (i 1).isLt
  have h2 : (i 2).val < 1 := (i 2).isLt
  have hN : cfg1.N = 256 := N1
  have hlt : ((i 0).val * 4 + (i 1).val / 1024) * 4 + 3 < cfg1.N := by rw [hN]; omega
  refine ⟨⟨((i 0).val * 4 + (i 1).val / 1024) * 4 + 3, hlt⟩, (flush1_2 _).mpr (by show (((i 0).val * 4 + (i 1).val / 1024) * 4 + 3) % 4 = 3; omega), ?_⟩
  rw [mem_blk1_2]
  obtain ⟨-, -, -, -, -, -, e0, e1, e2⟩ := idx_facts1 ⟨((i 0).val * 4 + (i 1).val / 1024) * 4 + 3, hlt⟩
  have tv : (⟨((i 0).val * 4 + (i 1).val / 1024) * 4 + 3, hlt⟩ : Fin cfg1.N).val = ((i 0).val * 4 + (i 1).val / 1024) * 4 + 3 := rfl
  rw [tv] at e0 e1
  intro a
  match a with
  | ⟨0, _⟩ =>
    show win1_2.index ⟨((i 0).val * 4 + (i 1).val / 1024) * 4 + 3, hlt⟩ (0 : Fin 3) * 1 ≤ (i 0).val
      ∧ (i 0).val < win1_2.index ⟨((i 0).val * 4 + (i 1).val / 1024) * 4 + 3, hlt⟩ (0 : Fin 3) * 1 + 1
    omega
  | ⟨1, _⟩ =>
    show win1_2.index ⟨((i 0).val * 4 + (i 1).val / 1024) * 4 + 3, hlt⟩ (1 : Fin 3) * 1024 ≤ (i 1).val
      ∧ (i 1).val < win1_2.index ⟨((i 0).val * 4 + (i 1).val / 1024) * 4 + 3, hlt⟩ (1 : Fin 3) * 1024 + 1024
    omega
  | ⟨2, _⟩ =>
    show win1_2.index ⟨((i 0).val * 4 + (i 1).val / 1024) * 4 + 3, hlt⟩ (2 : Fin 3) * 1 ≤ (i 2).val
      ∧ (i 2).val < win1_2.index ⟨((i 0).val * 4 + (i 1).val / 1024) * 4 + 3, hlt⟩ (2 : Fin 3) * 1 + 1
    omega

end Cert.KernelIdeal.BlockRead

end
-- ==== Proof.KI.Value0.lean ====
/-
  The value pallas_call 0 leaves in its output array: at (b, n, 0) the distance from point n of the first cloud, in batch b, to the
  nearest point of the second cloud.

  The grid walks, for each batch b and each tile i of 1024 points of the first cloud, the four tiles j = 0 .. 3 of
  the second cloud. At (b, i, j) the accumulator's row r takes the infimum, over tile j, of the distances from point
  i * 1024 + r (at j = 0), or the minimum of that with what the point before left (later). By induction on j it holds
  the minimum of the first j + 1 tile infima; at j = 3 that is the infimum over all 4096 points, and it is what the
  output block stores and the pipeline writes back to rows i * 1024 .. i * 1024 + 1023 of batch b. The written blocks
  cover the output array.
-/
import proofs.«171192_j43654047597211_1_alg».proof.Proof.KI.Pieces0
import proofs.«171192_j43654047597211_1_alg».proof.Proof.TileMin
import proofs.«171192_j43654047597211_1_alg».proof.Proof.TileLaw
import proofs.«171192_j43654047597211_1_alg».proof.Proof.KI.BlockRead
import proofs.«171192_j43654047597211_1_alg».proof.Proof.Spec
import Idealize.ShloMosaic.Lib.Pipeline.Value
import Idealize.ShloMosaic.Lib.ValueIdx

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat)

section Value
variable (V : (c : Dev nD) → (b : Ref sig .tc) → Buf (Elt Ideal) ((c : Thread nD τ).loc b))

/-- The distances from point n of the first cloud to every point of the second, in batch b. -/
def rowDist (c : Dev nD) (b : Fin 16) (n : Fin 4096) : Fin 4096 → EReal :=
  fun m => Cert.Spec.dist (V c main_arg0) (V c main_arg1) b n m

/-- The minimum of the first j + 1 tile infima, nested to the left. -/
def accTiles (f : Fin 4096 → EReal) : (j : ℕ) → j < 4 → EReal
  | 0, _ => Cert.TileLaw.tile f 0
  | j + 1, h => min (accTiles f j (Nat.lt_of_succ_lt h)) (Cert.TileLaw.tile f ⟨j + 1, h⟩)

/-- The accumulator a later point finds is what the point before left. -/
theorem prevScr_succ (c : Dev nD) (t : Fin cfg0.N) (n : ℕ) (hn : t.val = n + 1) :
    prevScr V c t = scrAt V c n (by have := t.isLt; omega) := by
  obtain ⟨tv, htv⟩ := t
  cases tv with
  | zero => exact absurd hn (by simp)
  | succ m =>
    have e : m = n := by simpa using hn
    subst e; rfl

/-- At point t = (b * 4 + i) * 4 + j the two blocks are tile i of the first cloud and tile j of the second: the tile's
    distance between rows r and cc is the distance between points i * 1024 + r and j * 1024 + cc. -/
theorem tdist_blocks (c : Dev nD) (t : Fin cfg0.N) (b : Fin 16) (i j : Fin 4)
    (ht : t.val = (b.val * 4 + i.val) * 4 + j.val) (r cc : Fin 1024) :
    Cert.TileMin.tdist (iblk V c 0 t) (iblk V c 1 t) r cc
      = rowDist V c b ⟨i.val * 1024 + r.val, by have := i.isLt; have := r.isLt; omega⟩
          ⟨j.val * 1024 + cc.val, by have := j.isLt; have := cc.isLt; omega⟩ := by
  have ea : ∀ (r : Fin 1024) (k : Fin 3), iblk V c 0 t (ix3 (0 : Fin 1) r k)
      = V c main_arg0 (ix3 b (⟨i.val * 1024 + r.val, by have := i.isLt; have := r.isLt; omega⟩ : Fin 4096) k) :=
    fun r k => BlockRead.read0_0 (V c main_arg0) t b i j r k ht
  have eb : ∀ (r : Fin 1024) (k : Fin 3), iblk V c 1 t (ix3 (0 : Fin 1) r k)
      = V c main_arg1 (ix3 b (⟨j.val * 1024 + r.val, by have := j.isLt; have := r.isLt; omega⟩ : Fin 4096) k) :=
    fun r k => BlockRead.read0_1 (V c main_arg1) t b i j r k ht
  unfold Cert.TileMin.tdist rowDist Cert.Spec.dist Cert.Spec.sqn Cert.Spec.dot
  refine congrArg Ideal.sqrt (congrArg₂ max (congrArg₂ (· - ·) (congrArg₂ (· + ·) ?_ ?_) (congrArg₂ (· * ·) rfl ?_)) rfl)
  · exact Finset.sum_congr rfl fun k _ => congrArg₂ (· * ·) (ea r k) (ea r k)
  · exact Finset.sum_congr rfl fun k _ => congrArg₂ (· * ·) (eb cc k) (eb cc k)
  · exact Finset.sum_congr rfl fun k _ => congrArg₂ (· * ·) (ea r k) (eb cc k)

/-- So the tile's row minimum at row r is the infimum of row i * 1024 + r's distances over tile j. -/
theorem pay1_blocks (c : Dev nD) (t : Fin cfg0.N) (b : Fin 16) (i j : Fin 4)
    (ht : t.val = (b.val * 4 + i.val) * 4 + j.val) (r : Fin 1024) :
    k0_pay1 (F := Ideal) (iblk V c 0 t) (iblk V c 1 t) (ix2 r (0 : Fin 1))
      = Cert.TileLaw.tile (rowDist V c b ⟨i.val * 1024 + r.val, by have := i.isLt; have := r.isLt; omega⟩) j := by
  refine (Cert.TileMin.pay1_apply _ _ r).trans ?_
  unfold Cert.TileLaw.tile
  exact Finset.inf_congr rfl fun cc _ => tdist_blocks V c t b i j ht r cc

/-- The accumulator after point (b, i, j), at row r: the minimum over tiles 0 .. j of row i * 1024 + r's distances. -/
theorem scr_value (c : Dev nD) : ∀ (j : ℕ) (hj : j < 4) (b : Fin 16) (i : Fin 4) (t : Fin cfg0.N)
    (_ : t.val = (b.val * 4 + i.val) * 4 + j) (r : Fin 1024),
    scrAt V c t.val t.isLt (ix2 r (0 : Fin 1))
      = accTiles (rowDist V c b ⟨i.val * 1024 + r.val, by have := i.isLt; have := r.isLt; omega⟩) j hj
  | 0, hj, b, i, t, ht, r => by
    refine (congrFun (scrAt_eq V c t) _).trans ?_
    refine (congrFun (stepScr_first V c t (by omega) _) _).trans ?_
    refine (Cert.TileMin.pay2_apply _ _ r).trans ?_
    exact pay1_blocks V c t b i ⟨0, hj⟩ ht r
  | j + 1, hj, b, i, t, ht, r => by
    have hN : cfg0.N = 256 := BlockRead.N0
    have hlt : (b.val * 4 + i.val) * 4 + j < cfg0.N := by have := t.isLt; omega
    have ih := scr_value c j (Nat.lt_of_succ_lt hj) b i ⟨(b.val * 4 + i.val) * 4 + j, hlt⟩ rfl r
    refine (congrFun (scrAt_eq V c t) _).trans ?_
    refine (congrFun (stepScr_later V c t (by omega) _) _).trans ?_
    refine (Cert.TileMin.pay3_apply _ _ _ r).trans ?_
    rw [prevScr_succ V c t ((b.val * 4 + i.val) * 4 + j) (by omega)]
    exact congrArg₂ min ih (pay1_blocks V c t b i ⟨j + 1, hj⟩ ht r)

/-- The output block after the last point of a row of tiles, at row r: the distance from point i * 1024 + r to the
    nearest point of the other cloud. -/
theorem out_block (c : Dev nD) (t : Fin cfg0.N) (b : Fin 16) (i : Fin 4)
    (ht : t.val = (b.val * 4 + i.val) * 4 + 3) (r : Fin 1024) :
    outAt V c t (ix3 (0 : Fin 1) r (0 : Fin 1))
      = Cert.Spec.nearest (V c main_arg0) (V c main_arg1) b ⟨i.val * 1024 + r.val, by have := i.isLt; have := r.isLt; omega⟩ := by
  refine (congrFun (outAt_last V c t (by omega)) _).trans ?_
  refine (Cert.TileMin.pay4_apply _ r).trans ?_
  refine (congrFun (scrAt_eq V c t).symm _).trans ?_
  refine (scr_value V c 3 (by omega) b i t ht r).trans ?_
  exact Cert.TileLaw.inf_four_tiles _

/-- The output array the blocks are blocks of: at (b, n, 0) the nearest-neighbour distance of point n in batch b. -/
def Gout (c : Dev nD) : S16x4096x1.Idx → EReal :=
  fun idx => Cert.Spec.nearest (V c main_arg0) (V c main_arg1) ⟨(idx 0).val, (idx 0).isLt⟩ ⟨(idx 1).val, (idx 1).isLt⟩

/-- What a point that writes back writes is its block of that array. -/
theorem flushed_eq (c : Dev nD) (t : Fin cfg0.N) (hf : (cfg0.win 2).flush t = true) :
    (dat V c).flushed 2 t = ((cfg0.win 2).blk t).view.read (Elt Ideal) (Gout V c) := by
  show (cfg0.win 2).cut (grid0.coords t) ((dat V c).after 2 t) = _
  rw [after2]
  have h3 : t.val % 4 = 3 := (flush0_2 t).mp hf
  obtain ⟨b, i, j, ht⟩ := BlockRead.decode0 t
  have hj : j.val = 3 := by have := j.isLt; omega
  rw [hj] at ht
  funext y
  obtain ⟨u, r, u', rfl⟩ : ∃ (u : Fin 1) (r : Fin 1024) (u' : Fin 1), y = ix3 u r u' := ⟨y 0, y 1, y 2, eq_ix3 y⟩
  obtain rfl : u = 0 := Subsingleton.elim _ _
  obtain rfl : u' = 0 := Subsingleton.elim _ _
  show outAt V c t (ix3 (0 : Fin 1) r (0 : Fin 1)) = _
  refine (out_block V c t b i ht r).trans ?_
  exact (BlockRead.read0_2 (F := Ideal) (Gout V c) t b i ⟨3, by omega⟩ r ht).symm

/-- The output array after the call: at (b, n, 0) the distance from point n to the nearest point of the other cloud. -/
theorem out_value (c : Dev nD) (b : Fin 16) (n : Fin 4096) :
    (dat V c).arrAt 2 cfg0.N (ix3 b n (0 : Fin 1)) = Cert.Spec.nearest (V c main_arg0) (V c main_arg1) b n := by
  rw [(dat V c).arrAt_eq_of_cover 2 (Gout V c) (fun t hf => flushed_eq V c t hf) BlockRead.cover0_2]
  rfl

end Value

end Cert.KernelIdeal.R0

end
-- ==== Proof.KI.Pieces1.lean ====
/-
  What the three runs of pallas_call 1's body leave, read back as values: every store of the body goes through the whole
  of its buffer and every load reads a whole buffer, so the accumulator after a point is the stored payload itself —
  at `j = 0` the tile's row minima, later the minimum of what was there with the tile's row minima — and the output
  block at `j = 3` is the accumulator just stored, re-laid as a [1, 1024, 1] block.
-/
import proofs.«171192_j43654047597211_1_alg».proof.Proof.KI.Region1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by funext a; fin_cases a <;> rfl
theorem zero3 : (![0, 0, 0] : Fin 3 → Nat) = fun _ => 0 := by funext a; fin_cases a <;> rfl

section Region
variable (V : (c : Dev nD) → (b : Ref sig .tc) → Buf (Elt F) ((c : Thread nD τ).loc b))

/-- At `j = 0` the accumulator is overwritten with the tile's row minima. -/
theorem stepScr_first (c : Dev nD) (t : Fin cfg1.N) (h0 : t.val % 4 = 0) (xs : Vec F S1024x1 .f32) :
    stepScr V c t xs = k1_pay2 (iblk V c 0 t) (iblk V c 1 t) := by
  unfold stepScr; rw [dif_pos h0]
  rw [View.read_writes_eq_canon _ _ _ (scoverFirst c _ _ _ _ _ _ _ _ _ _ _ _ _ _)]
  unfold runFirst; dsimp only
  rw [View.canon_unit_zero (S := S1024x1) zero2]
  simp only [View.readAt_eq_ld, Memref.IsWhole.read_unread, View.ld_unit_zero (S := S1x1024x3) zero3]

/-- A whole buffer, read whole, gives back the contents it is held at. -/
theorem readWhole2 (M : Memref sig .tc .vmem S1024x1 .f32) (h : M.IsWhole) (xs : Vec F S1024x1 .f32) :
    View.readAt (Elt F) M.view (Rect.unit (s := S1024x1) ![0, 0] S1024x1.size inb_S1024x1_S1024x1_0_0).toLoadRect (h.unread xs) = xs := by
  simp only [View.readAt_eq_ld, Memref.IsWhole.read_unread, View.ld_unit_zero (S := S1024x1) zero2]
theorem readWhole3 (M : Memref sig .tc .vmem S1x1024x3 .f32) (h : M.IsWhole) (x : Vec F S1x1024x3 .f32) :
    View.readAt (Elt F) M.view (Rect.unit (s := S1x1024x3) ![0, 0, 0] S1x1024x3.size inb_S1x1024x3_S1x1024x3_0_0_0).toLoadRect (h.unread x) = x := by
  simp only [View.readAt_eq_ld, Memref.IsWhole.read_unread, View.ld_unit_zero (S := S1x1024x3) zero3]

/-- At a later `j` it is replaced by its minimum with the tile's row minima. -/
theorem stepScr_later (c : Dev nD) (t : Fin cfg1.N) (h0 : ¬ t.val % 4 = 0) (xs : Vec F S1024x1 .f32) :
    stepScr V c t xs = k1_pay3 (iblk V c 0 t) (iblk V c 1 t) xs := by
  unfold stepScr; rw [dif_neg h0]
  by_cases h3 : t.val % 4 = 3
  · rw [dif_pos h3, View.read_writes_eq_canon _ _ _ (scoverLast c _ _ _ _ _ _ _ _ _ _ _ _ _ _ _)]
    unfold runLast; dsimp only; sl_unfold_run_names
    rw [View.canon_unit_zero (S := S1024x1) zero2, readWhole2, readWhole3, readWhole3]
  · rw [dif_neg h3, View.read_writes_eq_canon _ _ _ (scoverMiddle c _ _ _ _ _ _ _ _ _ _ _ _ _ _ _)]
    unfold runMiddle; dsimp only
    rw [View.canon_unit_zero (S := S1024x1) zero2]
    exact congr (congr (congrArg k1_pay3 (readWhole3 _ _ _)) (readWhole3 _ _ _)) (readWhole2 scM (Memref.isWhole_whole _) xs)

set_option maxHeartbeats 1000000 in
/-- At `j = 3` the output block is the accumulator just stored, re-laid. -/
theorem outAt_last (c : Dev nD) (t : Fin cfg1.N) (h3 : t.val % 4 = 3) :
    outAt V c t = k1_pay4 (stepScr V c t (prevScr V c t)) := by
  have h0 : ¬ t.val % 4 = 0 := by omega
  refine Eq.trans ?_ (congrArg k1_pay4 (stepScr_later V c t h0 (prevScr V c t)).symm)
  unfold outAt; rw [dif_pos h3]
  rw [View.read_writes_eq_canon _ _ _ (ocoverLast c _ _ _ _ _ _ _ _ _ _ _ _ _ _ _)]
  unfold runLast; dsimp only
  rw [View.canon_unit_zero (S := S1x1024x1) zero3]
  refine congrArg k1_pay4 ?_
  sl_unfold_run_names
  rw [View.readCov_unit_zero (S := S1024x1) _ zero2, readWhole2, readWhole3, readWhole3]

end Region

end Cert.KernelIdeal.R1

end
-- ==== Proof.KI.Value1.lean ====
/-
  The value pallas_call 1 leaves in its output array: at (b, n, 0) the distance from point n of the second cloud, in batch b, to the
  nearest point of the first cloud.

  The grid walks, for each batch b and each tile i of 1024 points of the second cloud, the four tiles j = 0 .. 3 of
  the first cloud. At (b, i, j) the accumulator's row r takes the infimum, over tile j, of the distances from point
  i * 1024 + r (at j = 0), or the minimum of that with what the point before left (later). By induction on j it holds
  the minimum of the first j + 1 tile infima; at j = 3 that is the infimum over all 4096 points, and it is what the
  output block stores and the pipeline writes back to rows i * 1024 .. i * 1024 + 1023 of batch b. The written blocks
  cover the output array.
-/
import proofs.«171192_j43654047597211_1_alg».proof.Proof.KI.Pieces1
import proofs.«171192_j43654047597211_1_alg».proof.Proof.TileMin
import proofs.«171192_j43654047597211_1_alg».proof.Proof.TileLaw
import proofs.«171192_j43654047597211_1_alg».proof.Proof.KI.BlockRead
import proofs.«171192_j43654047597211_1_alg».proof.Proof.Spec
import Idealize.ShloMosaic.Lib.Pipeline.Value
import Idealize.ShloMosaic.Lib.ValueIdx

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

section Value
variable (V : (c : Dev nD) → (b : Ref sig .tc) → Buf (Elt Ideal) ((c : Thread nD τ).loc b))

/-- The distances from point n of the first cloud to every point of the second, in batch b. -/
def rowDist (c : Dev nD) (b : Fin 16) (n : Fin 4096) : Fin 4096 → EReal :=
  fun m => Cert.Spec.dist (V c main_arg1) (V c main_arg0) b n m

/-- The minimum of the first j + 1 tile infima, nested to the left. -/
def accTiles (f : Fin 4096 → EReal) : (j : ℕ) → j < 4 → EReal
  | 0, _ => Cert.TileLaw.tile f 0
  | j + 1, h => min (accTiles f j (Nat.lt_of_succ_lt h)) (Cert.TileLaw.tile f ⟨j + 1, h⟩)

/-- The accumulator a later point finds is what the point before left. -/
theorem prevScr_succ (c : Dev nD) (t : Fin cfg1.N) (n : ℕ) (hn : t.val = n + 1) :
    prevScr V c t = scrAt V c n (by have := t.isLt; omega) := by
  obtain ⟨tv, htv⟩ := t
  cases tv with
  | zero => exact absurd hn (by simp)
  | succ m =>
    have e : m = n := by simpa using hn
    subst e; rfl

/-- At point t = (b * 4 + i) * 4 + j the two blocks are tile i of the first cloud and tile j of the second: the tile's
    distance between rows r and cc is the distance between points i * 1024 + r and j * 1024 + cc. -/
theorem tdist_blocks (c : Dev nD) (t : Fin cfg1.N) (b : Fin 16) (i j : Fin 4)
    (ht : t.val = (b.val * 4 + i.val) * 4 + j.val) (r cc : Fin 1024) :
    Cert.TileMin.tdist (iblk V c 0 t) (iblk V c 1 t) r cc
      = rowDist V c b ⟨i.val * 1024 + r.val, by have := i.isLt; have := r.isLt; omega⟩
          ⟨j.val * 1024 + cc.val, by have := j.isLt; have := cc.isLt; omega⟩ := by
  have ea : ∀ (r : Fin 1024) (k : Fin 3), iblk V c 0 t (ix3 (0 : Fin 1) r k)
      = V c main_arg1 (ix3 b (⟨i.val * 1024 + r.val, by have := i.isLt; have := r.isLt; omega⟩ : Fin 4096) k) :=
    fun r k => BlockRead.read1_0 (V c main_arg1) t b i j r k ht
  have eb : ∀ (r : Fin 1024) (k : Fin 3), iblk V c 1 t (ix3 (0 : Fin 1) r k)
      = V c main_arg0 (ix3 b (⟨j.val * 1024 + r.val, by have := j.isLt; have := r.isLt; omega⟩ : Fin 4096) k) :=
    fun r k => BlockRead.read1_1 (V c main_arg0) t b i j r k ht
  unfold Cert.TileMin.tdist rowDist Cert.Spec.dist Cert.Spec.sqn Cert.Spec.dot
  refine congrArg Ideal.sqrt (congrArg₂ max (congrArg₂ (· - ·) (congrArg₂ (· + ·) ?_ ?_) (congrArg₂ (· * ·) rfl ?_)) rfl)
  · exact Finset.sum_congr rfl fun k _ => congrArg₂ (· * ·) (ea r k) (ea r k)
  · exact Finset.sum_congr rfl fun k _ => congrArg₂ (· * ·) (eb cc k) (eb cc k)
  · exact Finset.sum_congr rfl fun k _ => congrArg₂ (· * ·) (ea r k) (eb cc k)

/-- So the tile's row minimum at row r is the infimum of row i * 1024 + r's distances over tile j. -/
theorem pay1_blocks (c : Dev nD) (t : Fin cfg1.N) (b : Fin 16) (i j : Fin 4)
    (ht : t.val = (b.val * 4 + i.val) * 4 + j.val) (r : Fin 1024) :
    k1_pay1 (F := Ideal) (iblk V c 0 t) (iblk V c 1 t) (ix2 r (0 : Fin 1))
      = Cert.TileLaw.tile (rowDist V c b ⟨i.val * 1024 + r.val, by have := i.isLt; have := r.isLt; omega⟩) j := by
  refine (Cert.TileMin.k1_pay1_apply _ _ r).trans ?_
  unfold Cert.TileLaw.tile
  exact Finset.inf_congr rfl fun cc _ => tdist_blocks V c t b i j ht r cc

/-- The accumulator after point (b, i, j), at row r: the minimum over tiles 0 .. j of row i * 1024 + r's distances. -/
theorem scr_value (c : Dev nD) : ∀ (j : ℕ) (hj : j < 4) (b : Fin 16) (i : Fin 4) (t : Fin cfg1.N)
    (_ : t.val = (b.val * 4 + i.val) * 4 + j) (r : Fin 1024),
    scrAt V c t.val t.isLt (ix2 r (0 : Fin 1))
      = accTiles (rowDist V c b ⟨i.val * 1024 + r.val, by have := i.isLt; have := r.isLt; omega⟩) j hj
  | 0, hj, b, i, t, ht, r => by
    refine (congrFun (scrAt_eq V c t) _).trans ?_
    refine (congrFun (stepScr_first V c t (by omega) _) _).trans ?_
    refine (Cert.TileMin.k1_pay2_apply _ _ r).trans ?_
    exact pay1_blocks V c t b i ⟨0, hj⟩ ht r
  | j + 1, hj, b, i, t, ht, r => by
    have hN : cfg1.N = 256 := BlockRead.N1
    have hlt : (b.val * 4 + i.val) * 4 + j < cfg1.N := by have := t.isLt; omega
    have ih := scr_value c j (Nat.lt_of_succ_lt hj) b i ⟨(b.val * 4 + i.val) * 4 + j, hlt⟩ rfl r
    refine (congrFun (scrAt_eq V c t) _).trans ?_
    refine (congrFun (stepScr_later V c t (by omega) _) _).trans ?_
    refine (Cert.TileMin.k1_pay3_apply _ _ _ r).trans ?_
    rw [prevScr_succ V c t ((b.val * 4 + i.val) * 4 + j) (by omega)]
    exact congrArg₂ min ih (pay1_blocks V c t b i ⟨j + 1, hj⟩ ht r)

/-- The output block after the last point of a row of tiles, at row r: the distance from point i * 1024 + r to the
    nearest point of the other cloud. -/
theorem out_block (c : Dev nD) (t : Fin cfg1.N) (b : Fin 16) (i : Fin 4)
    (ht : t.val = (b.val * 4 + i.val) * 4 + 3) (r : Fin 1024) :
    outAt V c t (ix3 (0 : Fin 1) r (0 : Fin 1))
      = Cert.Spec.nearest (V c main_arg1) (V c main_arg0) b ⟨i.val * 1024 + r.val, by have := i.isLt; have := r.isLt; omega⟩ := by
  refine (congrFun (outAt_last V c t (by omega)) _).trans ?_
  refine (Cert.TileMin.k1_pay4_apply _ r).trans ?_
  refine (congrFun (scrAt_eq V c t).symm _).trans ?_
  refine (scr_value V c 3 (by omega) b i t ht r).trans ?_
  exact Cert.TileLaw.inf_four_tiles _

/-- The output array the blocks are blocks of: at (b, n, 0) the nearest-neighbour distance of point n in batch b. -/
def Gout (c : Dev nD) : S16x4096x1.Idx → EReal :=
  fun idx => Cert.Spec.nearest (V c main_arg1) (V c main_arg0) ⟨(idx 0).val, (idx 0).isLt⟩ ⟨(idx 1).val, (idx 1).isLt⟩

/-- What a point that writes back writes is its block of that array. -/
theorem flushed_eq (c : Dev nD) (t : Fin cfg1.N) (hf : (cfg1.win 2).flush t = true) :
    (dat V c).flushed 2 t = ((cfg1.win 2).blk t).view.read (Elt Ideal) (Gout V c) := by
  show (cfg1.win 2).cut (grid1.coords t) ((dat V c).after 2 t) = _
  rw [after2]
  have h3 : t.val % 4 = 3 := (flush1_2 t).mp hf
  obtain ⟨b, i, j, ht⟩ := BlockRead.decode1 t
  have hj : j.val = 3 := by have := j.isLt; omega
  rw [hj] at ht
  funext y
  obtain ⟨u, r, u', rfl⟩ : ∃ (u : Fin 1) (r : Fin 1024) (u' : Fin 1), y = ix3 u r u' := ⟨y 0, y 1, y 2, eq_ix3 y⟩
  obtain rfl : u = 0 := Subsingleton.elim _ _
  obtain rfl : u' = 0 := Subsingleton.elim _ _
  show outAt V c t (ix3 (0 : Fin 1) r (0 : Fin 1)) = _
  refine (out_block V c t b i ht r).trans ?_
  exact (BlockRead.read1_2 (F := Ideal) (Gout V c) t b i ⟨3, by omega⟩ r ht).symm

/-- The output array after the call: at (b, n, 0) the distance from point n to the nearest point of the other cloud. -/
theorem out_value (c : Dev nD) (b : Fin 16) (n : Fin 4096) :
    (dat V c).arrAt 2 cfg1.N (ix3 b n (0 : Fin 1)) = Cert.Spec.nearest (V c main_arg1) (V c main_arg0) b n := by
  rw [(dat V c).arrAt_eq_of_cover 2 (Gout V c) (fun t hf => flushed_eq V c t hf) BlockRead.cover1_2]
  rfl

end Value

end Cert.KernelIdeal.R1

end
-- ==== Proof.HostTail.lean ====
/-
  The part both programs share after the two nearest-neighbour arrays.

  From two [16,4096] arrays r1, r2 and the [16,64,64] array t the reference goes on, one host operation at a
  time: the float sum of each row of r1 from the zero word, divided by the word of 4096.0 (the mean over the
  points of a batch); the same for r2; the sum of the two [16] arrays; its float sum from the zero word divided by
  the word of 16.0 (the mean over the batches); times the word of 1.0; plus the word of 0.1 times the regulariser
  of t, which does not depend on r1 and r2 and is kept as the generated module's stage for it.

  tail r1 r2 t is that composition as ONE function, and ref_tail says the reference's result is tail at its own
  two minimum-reductions: the stages from the row sums on are definitions that unfold to the same term.
-/
import proofs.«171192_j43654047597211_1_alg».proof.Proof.Gen.ReferenceIdeal.Read

noncomputable section

namespace Cert.HostTail

open Cert.ReferenceIdeal Cert.ReferenceIdeal.Gen Cert.ReferenceIdeal.Read
open Idealize.ShloMosaic Idealize.ShloMosaic.TcCoe Idealize.SL.Sem Idealize.ShloMosaic.StableHlo

/-- The shared last part: the mean over batches of the per-batch means of the two arrays, added up, times the
    word of 1.0, plus the word of 0.1 times the regulariser of the third argument. -/
def tail (r1 r2 : (⟨S16x4096, .f32⟩ : BufTy).Contents (Elt Ideal)) (t : (⟨S16x64x64, .f32⟩ : BufTy).Contents (Elt Ideal)) :
    (⟨S_, .f32⟩ : BufTy).Contents (Elt Ideal) :=
  addf
    (mulf (constant (F := Ideal) S_ .f32 0x3F800000#32)
      (Host.divf (F := Ideal)
        (Host.reduceAdd (F := Ideal)
          (addf
            (Host.divf (F := Ideal)
              (Host.reduceAdd (F := Ideal) r1 (constant (F := Ideal) S_ .f32 0x00000000#32) reducesTo_S16x4096_S16_d1 h_S_)
              (broadcastInDim S16 ![] bcast_S_S16 (constant (F := Ideal) S_ .f32 0x45800000#32)))
            (Host.divf (F := Ideal)
              (Host.reduceAdd (F := Ideal) r2 (constant (F := Ideal) S_ .f32 0x00000000#32) reducesTo_S16x4096_S16_d1 h_S_)
              (broadcastInDim S16 ![] bcast_S_S16 (constant (F := Ideal) S_ .f32 0x45800000#32))))
          (constant (F := Ideal) S_ .f32 0x00000000#32) reducesTo_S16_S_d0 h_S_)
        (constant (F := Ideal) S_ .f32 0x41800000#32)))
    (val_main_v43 (F := Ideal) t)

/-- The reference's result is the shared last part at its two minimum-reductions of the distance tensor. -/
theorem ref_tail (p g : (⟨S16x4096x3, .f32⟩ : BufTy).Contents (Elt Ideal)) (t : (⟨S16x64x64, .f32⟩ : BufTy).Contents (Elt Ideal)) :
    val_main_v44 (F := Ideal) p g t = tail (val_main_v16 (F := Ideal) p g) (val_main_v17 (F := Ideal) p g) t := rfl

end Cert.HostTail

end
-- ==== Proof.KI.KernelTail.lean ====
/-
  The kernel program's host operations, read back.

  Around its two calls the kernel program runs two straight lines of host operations. The first is one reshape
  of the first call's [16,4096,1] result to [16,4096]. The second reshapes the second call's result the same way
  and then applies, operation for operation, the part the reference also ends with (Cert.HostTail.tail) to the
  two reshaped arrays and the third argument. Each line's effect on the buffers is the composition of its
  operations' functions over the contents before it; the side conditions the two programs state for the shared
  operations are facts about the same literal shapes, so the composed term is the shared one.

  A [16,4096,1] array cast to [16,4096] keeps every element at its row-major position: (b, n) reads (b, n, 0).
-/
import proofs.«171192_j43654047597211_1_alg».proof.Proof.HostTail
import proofs.«171192_j43654047597211_1_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.KTail

open Cert.KernelIdeal Cert.KernelIdeal.Gen
open Idealize.ShloMosaic Idealize.ShloMosaic.TcCoe Idealize.SL.Sem Idealize.ShloMosaic.StableHlo
open Idealize.ShloMosaic.ValueIdx

/-- The first host stretch is one reshape: after it the [16,4096] buffer holds the first call's [16,4096,1]
    result, cast. -/
theorem after_hostOps1_v1 (W : Valuation τ sig (Elt Ideal)) :
    StableHlo.after (hostOps1 (F := Ideal)) W (Proc.devRef .tc main_v1)
      = shapeCast S16x4096 (W (Proc.devRef .tc main_v0)) shapeCasts_S16x4096x1_S16x4096 := by
  after_results
  rfl

/-- Every other buffer is as it was. -/
theorem after_hostOps1_of_ne (W : Valuation τ sig (Elt Ideal)) (b : Ref sig .tc) (hb : b ≠ main_v1) :
    StableHlo.after (hostOps1 (F := Ideal)) W (Proc.devRef .tc b) = W (Proc.devRef .tc b) := by
  simp only [after_cons, after_nil]
  rw [reshape_result_ne]
  exact hb

/-- The second host stretch reshapes the second call's result and then runs the shared last part on the first
    reshaped array, the second reshaped array and the third argument: the result buffer holds the shared last
    part of the three. -/
theorem after_hostOps2_result (W : Valuation τ sig (Elt Ideal)) :
    StableHlo.after (hostOps2 (F := Ideal)) W (Proc.devRef .tc main_v30)
      = Cert.HostTail.tail (W (Proc.devRef .tc main_v1))
          (shapeCast S16x4096 (W (Proc.devRef .tc main_v2)) shapeCasts_S16x4096x1_S16x4096)
          (W (Proc.devRef .tc main_arg2)) := by
  after_results_simp
  rfl

/-- A [16,4096,1] array cast to [16,4096] reads, at (b, n), the operand at (b, n, 0): the two indices have the
    same row-major position. -/
theorem reshape_apply (x : (⟨S16x4096x1, .f32⟩ : BufTy).Contents (Elt Ideal)) (b : Fin 16) (n : Fin 4096) :
    shapeCast S16x4096 x shapeCasts_S16x4096x1_S16x4096 (ix2 b n) = x (ix3 b n (0 : Fin 1)) :=
  shapeCast_apply x _ _ _ (by
    rw [Shape.rowMajor_val_three, Shape.rowMajor_val_two]
    show (b.val * 4096 + n.val) * 1 + 0 = b.val * 4096 + n.val
    omega)

end Cert.KernelIdeal.KTail

end
-- ==== Proof.RefNearest.lean ====
/-
  The reference's two nearest-neighbour arrays, read at an index.

  The reference forms the distance tensor D : [16,4096,4096] through the Gram form,
      D (b, n, m) = sqrt (max ((|p_n|^2 + |g_m|^2) - 2 * <p_n, g_m>) 0),
  one host operation at a time (squares, float sums over the three coordinates from the zero word, the
  contraction over the three coordinates, broadcasts, add, multiply by the word of 2.0, subtract, maximum with the
  zero word, square root), and then takes two minimum-reductions of D from the word of +∞: over its last axis
  (for every point n of p, the nearest point of g) and over its middle axis (for every point m of g, the nearest
  point of p).

  ref_dist: at the ideal values, D (b, n, m) is Cert.Spec.dist p g b n m. Each stage is read at an index by the
  generated module's read-at-an-index statements; the index functions those statements compose all come to
  (b, n, k) or (b, m, k), coordinate by coordinate.

  ref_rowmin, ref_colmin: minimum on the extended reals is commutative and associative, so a minimum-reduction
  over ONE axis is, at a kept index, the fold of min from the initial value over that axis's coordinates, in any
  order; the kept index with the coordinate k put back is (b, n, k), resp. (b, k, m); the word of +∞ is the top
  element, and the fold of min from the top element over all coordinates is the infimum over them. Over the
  last axis this is Cert.Spec.nearest p g b n as it stands; over the middle axis it is the infimum of dist p g
  over its FIRST point, which the symmetry of the Gram form (Cert.Spec.inf_first) turns into
  Cert.Spec.nearest g p b m.
-/
import proofs.«171192_j43654047597211_1_alg».proof.Proof.Spec
import proofs.«171192_j43654047597211_1_alg».proof.Proof.Gen.ReferenceIdeal.Read
import Idealize.ShloMosaic.PureOps.Reduce
import Idealize.ShloMosaic.PureOps.Ideal.Laws

noncomputable section

namespace Cert.RefNearest

open Cert.ReferenceIdeal Cert.ReferenceIdeal.Gen Cert.ReferenceIdeal.Read
open Idealize.ShloMosaic Idealize.ShloMosaic.ValueIdx
open scoped BigOperators

/-- The squared norms of p are read at (b, n, k): the two broadcasts keep the batch and the first point. -/
theorem idx_sqn_left (b : Fin 16) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared norms of g are read at (b, m, k): the two broadcasts keep the batch and the second point. -/
theorem idx_sqn_right (b : Fin 16) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The contraction reads its left operand at (b, n, k). -/
theorem idx_dot_left (b : Fin 16) (n m : Fin 4096) (k : Fin 3) :
    lidx_main_v4 (ix3 b n m) k = ix3 b n k :=
  funext fun a => Fin.ext (by match a with | ⟨0, _⟩ => rfl | ⟨1, _⟩ => rfl | ⟨2, _⟩ => rfl)

/-- The contraction reads its right operand at (b, m, k). -/
theorem idx_dot_right (b : Fin 16) (n m : Fin 4096) (k : Fin 3) :
    ridx_main_v4 (ix3 b n m) k = ix3 b m k :=
  funext fun a => Fin.ext (by match a with | ⟨0, _⟩ => rfl | ⟨1, _⟩ => rfl | ⟨2, _⟩ => rfl)

/-- The distance tensor at (b, n, m) is the Gram-form distance from point n of p to point m of g in batch b.
    The zero word is 0, so each float sum is the bare sum over the three coordinates; the word of 2.0 and the
    zero word under the maximum are the specification's own constants. -/
theorem ref_dist (p g : Cert.Spec.Pts) (b : Fin 16) (n m : Fin 4096) :
    val_main_v15 (F := Ideal) p g (ix3 b n m) = Cert.Spec.dist p g b n m := by
  simp only [val_main_v15_apply, val_main_v14_apply, val_main_v12_apply, val_main_v13_apply, val_main_cst_2_apply,
    val_main_v9_apply, val_main_v11_apply, val_main_v10_apply, val_main_cst_1_apply, val_main_v7_apply,
    val_main_v8_apply, val_main_v5_apply, val_main_v6_apply, val_main_v1_apply, val_main_v3_apply,
    val_main_v4_apply, val_main_cst_apply, val_main_cst_0_apply, val_main_v0_apply, val_main_v2_apply,
    idx_sqn_left, idx_sqn_right, idx_dot_left, idx_dot_right]
  simp only [Ideal.hostUnary_sqrt_def, Ideal.maximumf_def, Ideal.subf_def, Ideal.addf_def, Ideal.mulf_def,
    Ideal.ofBits_def, Ideal.ofBits_zero_f32, zero_add]
  simp only [Cert.Spec.dist, Cert.Spec.sqn, Cert.Spec.dot, Cert.Spec.two, Cert.Spec.zero, Ideal.ofBits_zero_f32]

/-- The distance tensor reduces along its last axis, and along its middle axis, to a [16,4096] array. -/
theorem reduces_d2 : S16x4096x4096.Reduces [2] S16x4096 := by decide
theorem reduces_d1 : S16x4096x4096.Reduces [1] S16x4096 := by decide

/-- The reduced index (b, n) with k put back on the last axis is (b, n, k). -/
theorem lift_d2 (b : Fin 16) (n : Fin 4096) (k : Fin (S16x4096x4096.size 2)) :
    reduces_d2.lift (ix2 b n) k = ix3 b n (⟨k.val, k.isLt⟩ : Fin 4096) := by
  funext c; apply Fin.ext
  match c with | ⟨0, _⟩ => rfl | ⟨1, _⟩ => rfl | ⟨2, _⟩ => rfl

/-- The reduced index (b, m) with k put back on the middle axis is (b, k, m). -/
theorem lift_d1 (b : Fin 16) (m : Fin 4096) (k : Fin (S16x4096x4096.size 1)) :
    reduces_d1.lift (ix2 b m) k = ix3 b (⟨k.val, k.isLt⟩ : Fin 4096) m := by
  funext c; apply Fin.ext
  match c with | ⟨0, _⟩ => rfl | ⟨1, _⟩ => rfl | ⟨2, _⟩ => rfl

/-- The word of +∞ is the top element. -/
theorem ofBits_inf_f32 : Ideal.ofBits .f32 0x7F800000#32 = (⊤ : EReal) := by simp [Ideal.ofBits, Ideal.ieee]

/-- The minimum-reduction over the last axis, at (b, n): the distance from point n of p to the nearest point of g. -/
theorem ref_rowmin (p g : Cert.Spec.Pts) (b : Fin 16) (n : Fin 4096) :
    val_main_v16 (F := Ideal) p g (ix2 b n) = Cert.Spec.nearest p g b n := by
  unfold val_main_v16
  rw [Host.reduce_eq_fold_single FloatOps.minimumf _ _ reducesTo_S16x4096x4096_S16x4096_d2 reduces_d2 h_S_]
  have hf : (val_main_v15 (F := Ideal) p g ∘ reduces_d2.lift (ix2 b n)) = fun m : Fin 4096 => Cert.Spec.dist p g b n m :=
    funext fun k => (congrArg (val_main_v15 (F := Ideal) p g) (lift_d2 b n k)).trans (ref_dist p g b n _)
  have htop : val_main_cst_3 (F := Ideal) (Shape.Idx.first h_S_) = (⊤ : EReal) := by
    rw [val_main_cst_3_apply]; exact ofBits_inf_f32
  rw [hf, htop]
  rfl

/-- The minimum-reduction over the middle axis, at (b, m): the infimum over the first point n of the distance from
    point n of p to point m of g, which is the distance from point m of g to the nearest point of p. -/
theorem ref_colmin (p g : Cert.Spec.Pts) (b : Fin 16) (m : Fin 4096) :
    val_main_v17 (F := Ideal) p g (ix2 b m) = Cert.Spec.nearest g p b m := by
  unfold val_main_v17
  rw [Host.reduce_eq_fold_single FloatOps.minimumf _ _ reducesTo_S16x4096x4096_S16x4096_d1 reduces_d1 h_S_]
  have hf : (val_main_v15 (F := Ideal) p g ∘ reduces_d1.lift (ix2 b m)) = fun n : Fin 4096 => Cert.Spec.dist p g b n m :=
    funext fun k => (congrArg (val_main_v15 (F := Ideal) p g) (lift_d1 b m k)).trans (ref_dist p g b _ m)
  have htop : val_main_cst_4 (F := Ideal) (Shape.Idx.first h_S_) = (⊤ : EReal) := by
    rw [val_main_cst_4_apply]; exact ofBits_inf_f32
  rw [hf, htop]
  exact Cert.Spec.inf_first p g b m

end Cert.RefNearest

end
-- ==== Proof.KI.Final.lean ====
/-
  The two idealized programs compute the same number.

  The kernel program's result is the shared host tail applied to the reshaped outputs of its two pallas_calls and to
  the third argument. Output 0 at (b, n) is the distance from point n of the first cloud to the nearest point of the
  second — the reference's row minimum of the distance tensor —, and output 1 at (b, m) is the distance from point m of
  the second cloud to the nearest point of the first — the reference's column minimum, because the Gram form of the
  distance is symmetric in its two points. So both programs apply one function, the tail, to equal arrays.
-/
import proofs.«171192_j43654047597211_1_alg».proof.Defs
import proofs.«171192_j43654047597211_1_alg».proof.Proof.KI.Assembly
import proofs.«171192_j43654047597211_1_alg».proof.Proof.KI.Value0
import proofs.«171192_j43654047597211_1_alg».proof.Proof.KI.Value1
import proofs.«171192_j43654047597211_1_alg».proof.Proof.KI.KernelTail
import proofs.«171192_j43654047597211_1_alg».proof.Proof.HostTail
import proofs.«171192_j43654047597211_1_alg».proof.Proof.RefNearest
import proofs.«171192_j43654047597211_1_alg».proof.Proof.Gen.ReferenceIdeal.Run
import proofs.«171192_j43654047597211_1_alg».proof.Proof.Gen.Pre_finite_inputs
import proofs.«171192_j43654047597211_1_alg».proof.Proof.Gen.KernelIdeal
import proofs.«171192_j43654047597211_1_alg».proof.Proof.Gen.ReferenceIdeal
import proofs.«171192_j43654047597211_1_alg».proof.Proof.Gen.ReferenceIdeal.Read

set_option maxRecDepth 16384

noncomputable section

namespace Cert.KernelIdeal.Final

open Cert.KernelIdeal Cert.KernelIdeal.Gen Cert.KernelIdeal.Asm
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The three argument arrays, as launched on core `c`. -/
abbrev argP (c : Dev nD) : Cert.Spec.Pts := m ((c.tc : Thread nD τ).loc main_arg0)
abbrev argG (c : Dev nD) : Cert.Spec.Pts := m ((c.tc : Thread nD τ).loc main_arg1)

/-! ## What each pallas_call is entered with -/

theorem V2_arg0 (c : Dev nD) : V2 m ρ c main_arg0 = m ((c.tc : Thread nD τ).loc main_arg0) :=
  (W2_of m ρ c main_arg0 (by decide)).trans
    ((W1_arr m ρ c 0).trans (((R0.dat (V0 m ρ) c).arrAt_in 0 rfl _).trans (R0.A_eq (V0 m ρ) c 0)))
theorem V2_arg1 (c : Dev nD) : V2 m ρ c main_arg1 = m ((c.tc : Thread nD τ).loc main_arg1) :=
  (W2_of m ρ c main_arg1 (by decide)).trans
    ((W1_arr m ρ c 1).trans (((R0.dat (V0 m ρ) c).arrAt_in 1 rfl _).trans (R0.A_eq (V0 m ρ) c 1)))

/-! ## The two outputs are the reference's two minimum-reductions -/

/-- pallas_call 0's output, reshaped to [16, 4096], is the reference's row minimum of the distance tensor. -/
theorem out0_eq (c : Dev nD) :
    shapeCast S16x4096 (W1 m ρ c (Proc.devRef .tc main_v0)) shapeCasts_S16x4096x1_S16x4096
      = Cert.ReferenceIdeal.Read.val_main_v16 (F := Ideal) (argP m c) (argG m c) := by
  funext i
  obtain ⟨b, n, rfl⟩ : ∃ (b : Fin 16) (n : Fin 4096), i = ix2 b n := ⟨i 0, i 1, eq_ix2 i⟩
  rw [Cert.KernelIdeal.KTail.reshape_apply, Cert.RefNearest.ref_rowmin]
  exact (congrFun (W1_arr m ρ c 2) _).trans (R0.out_value (V0 m ρ) c b n)

/-- pallas_call 1's output, reshaped, is the reference's column minimum. -/
theorem out1_eq (c : Dev nD) :
    shapeCast S16x4096 (W3 m ρ c (Proc.devRef .tc main_v2)) shapeCasts_S16x4096x1_S16x4096
      = Cert.ReferenceIdeal.Read.val_main_v17 (F := Ideal) (argP m c) (argG m c) := by
  funext i
  obtain ⟨b, n, rfl⟩ : ∃ (b : Fin 16) (n : Fin 4096), i = ix2 b n := ⟨i 0, i 1, eq_ix2 i⟩
  rw [Cert.KernelIdeal.KTail.reshape_apply, Cert.RefNearest.ref_colmin]
  refine (congrFun (W3_arr m ρ c 2) _).trans ((R1.out_value (V2 m ρ) c b n).trans ?_)
  rw [V2_arg0, V2_arg1]

/-! ## The result -/

theorem W3_v1 (c : Dev nD) : W3 m ρ c (Proc.devRef .tc main_v1)
    = shapeCast S16x4096 (W1 m ρ c (Proc.devRef .tc main_v0)) shapeCasts_S16x4096x1_S16x4096 :=
  (W3_of_ne m ρ c main_v1 (by decide)).trans (Cert.KernelIdeal.KTail.after_hostOps1_v1 (W1 m ρ c))

theorem W3_arg2 (c : Dev nD) : W3 m ρ c (Proc.devRef .tc main_arg2) = m ((c.tc : Thread nD τ).loc main_arg2) :=
  (W3_of_ne m ρ c main_arg2 (by decide)).trans ((W2_of m ρ c main_arg2 (by decide)).trans (W1_of_ne m ρ c main_arg2 (by decide)))

/-- The kernel program's result: the tail of the reference's two stages and the third argument. -/
theorem result_eq (c : Dev nD) :
    W4 m ρ c (Proc.devRef .tc main_v30)
      = Cert.HostTail.tail (Cert.ReferenceIdeal.Read.val_main_v16 (F := Ideal) (argP m c) (argG m c))
          (Cert.ReferenceIdeal.Read.val_main_v17 (F := Ideal) (argP m c) (argG m c)) (m ((c.tc : Thread nD τ).loc main_arg2)) := by
  rw [show W4 m ρ c (Proc.devRef .tc main_v30) = StableHlo.after (hostOps2 (F := Ideal)) (W3 m ρ c) (Proc.devRef .tc main_v30) from rfl,
    Cert.KernelIdeal.KTail.after_hostOps2_result, W3_v1, W3_arg2, out0_eq, out1_eq]

end Cert.KernelIdeal.Final

/-! ## The claims -/

namespace Cert.Proof

open Idealize.ShloMosaic Idealize.ShloMosaic.TcCoe Idealize.SL.Sem

theorem frame_ki : Cert.frame_KernelIdeal := fun m ρ _ =>
  (θ_run Cert.KernelIdeal.defs _ _).mono (fun _ h c => (h c).2) (Cert.KernelIdeal.Asm.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories agreeing on the arguments, end with the shared tail of the same two arrays. -/
theorem algebraic : Cert.algebraic_KernelIdeal_ReferenceIdeal := by
  intro m ρ m' ρ' _ hagree
  refine ⟨fun c => Cert.HostTail.tail
      (Cert.ReferenceIdeal.Read.val_main_v16 (F := Ideal) (Cert.KernelIdeal.Final.argP m c) (Cert.KernelIdeal.Final.argG m c))
      (Cert.ReferenceIdeal.Read.val_main_v17 (F := Ideal) (Cert.KernelIdeal.Final.argP m c) (Cert.KernelIdeal.Final.argG m c))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Final.result_eq m ρ c), (h c).2⟩)
      (Cert.KernelIdeal.Asm.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v44_eq _ _ _).trans (Cert.HostTail.ref_tail _ _ _)

end Cert.Proof

end
-- ==== Proof.lean ====
/-
  The certificate's five claims, assembled.

  Both kernel programs (the word-level one and its idealization) run to the end, fault nowhere and leave their arguments
  unchanged: each pallas_call's body is run in its three control cases and the two regions and two host stretches are
  composed in order. The reference runs as the composition of its host operations. Nothing was rewritten by the ideal
  pass, so the idealization claim is trivial. At the ideal instance the kernel program and the reference end with equal
  results: both are the shared host tail of the same two nearest-neighbour distance arrays.
-/
import proofs.«171192_j43654047597211_1_alg».proof.Defs
import proofs.«171192_j43654047597211_1_alg».proof.Proof.Gen.Kernel
import proofs.«171192_j43654047597211_1_alg».proof.Proof.Gen.KernelIdeal
import proofs.«171192_j43654047597211_1_alg».proof.Proof.Gen.ReferenceIdeal
import proofs.«171192_j43654047597211_1_alg».proof.Proof.Gen.Pre_finite_inputs
import proofs.«171192_j43654047597211_1_alg».proof.Proof.KB.Assembly
import proofs.«171192_j43654047597211_1_alg».proof.Proof.KI.Final
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Asm.run_main (F := Bits) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
